-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096 : Shape := ⟨2, ![1, 4096]⟩
abbrev S4096x8192 : Shape := ⟨2, ![4096, 8192]⟩
abbrev S8192 : Shape := ⟨1, ![8192]⟩
abbrev S8192x64 : Shape := ⟨2, ![8192, 64]⟩
abbrev S64 : Shape := ⟨1, ![64]⟩
abbrev S_ : Shape := ⟨0, ![]⟩

class Facts : Prop where
  bcast_S_S1x4096 : S_.BroadcastsInDim S1x4096 (![] : Fin 0 → Fin S1x4096.rank)
  reducesTo_S1x4096_S_d0_1 : S1x4096.ReducesTo [0, 1] S_
  h_S_ : 0 < S_.numel
  bcast_S_S4096x8192 : S_.BroadcastsInDim S4096x8192 (![] : Fin 0 → Fin S4096x8192.rank)
  reducesTo_S4096x8192_S_d0_1 : S4096x8192.ReducesTo [0, 1] S_
  bcast_S_S8192 : S_.BroadcastsInDim S8192 (![] : Fin 0 → Fin S8192.rank)
  reducesTo_S8192_S_d0 : S8192.ReducesTo [0] S_
  bcast_S_S8192x64 : S_.BroadcastsInDim S8192x64 (![] : Fin 0 → Fin S8192x64.rank)
  reducesTo_S8192x64_S_d0_1 : S8192x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S8192x64 .f32) (main_arg8 : FVec F S64 .f32) (main_v33 : IVec S_ 1) : IVec S_ 1 :=
  let main_v34 : FVec F S8192x64 .f32 := Host.absf main_arg7
  let main_cst_12 : FVec F S_ .f32 := constant S_ .f32 0x7F800000#32
  let main_v35 : FVec F S8192x64 .f32 := broadcastInDim S8192x64 ![] bcast_S_S8192x64 main_cst_12
  let main_v36 : IVec S8192x64 1 := cmpf .olt main_v34 main_v35
  let main_c_13 : IVec S_ 1 := constantI S_ 1 1#1
  let main_v37 : IVec S_ 1 := (fun x v => Host.reduce IntOp.andi x v reducesTo_S8192x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S64 .f32) (main_arg5 : FVec F S4096x8192 .f32) (main_arg6 : FVec F S8192 .f32) (main_arg7 : FVec F S8192x64 .f32) (main_arg8 : FVec F S64 .f32) (main_v13 : IVec S_ 1) (main_v16 : IVec S8192x64 1) : IVec S_ 1 :=
  let main_c_5 : IVec S_ 1 := constantI S_ 1 1#1
  let main_v17 : IVec S_ 1 := (fun x v => Host.reduce IntOp.andi x v reducesTo_S8192x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S4096x8192 .f32 := Host.absf main_arg5
  let main_cst_8 : FVec F S_ .f32 := constant S_ .f32 0x7F800000#32
  let main_v25 : FVec F S4096x8192 .f32 := broadcastInDim S4096x8192 ![] bcast_S_S4096x8192 main_cst_8
  let main_v26 : IVec S4096x8192 1 := cmpf .olt main_v24 main_v25
  let main_c_9 : IVec S_ 1 := constantI S_ 1 1#1
  let main_v27 : IVec S_ 1 := (fun x v => Host.reduce IntOp.andi x v reducesTo_S4096x8192_S_d0_1 h_S_) main_v26 main_c_9
  let main_v28 : IVec S_ 1 := andi main_v23 main_v27
  let main_v29 : FVec F S8192 .f32 := Host.absf main_arg6
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  fn_part2 (F := F) main_arg7 main_arg8 main_v33

def fn {F : FTy → Type} [FloatOps F] (main_arg0 : FVec F S1x4096 .f32) (main_arg1 : FVec F S4096x8192 .f32) (main_arg2 : FVec F S8192 .f32) (main_arg3 : FVec F S8192x64 .f32) (main_arg4 : FVec F S64 .f32) (main_arg5 : FVec F S4096x8192 .f32) (main_arg6 : FVec F S8192 .f32) (main_arg7 : FVec F S8192x64 .f32) (main_arg8 : FVec F S64 .f32) : IVec S_ 1 :=
  let main_v0 : FVec F S1x4096 .f32 := Host.absf main_arg0
  let main_cst : FVec F S_ .f32 := constant S_ .f32 0x7F800000#32
  let main_v1 : FVec F S1x4096 .f32 := broadcastInDim S1x4096 ![] bcast_S_S1x4096 main_cst
  let main_v2 : IVec S1x4096 1 := cmpf .olt main_v0 main_v1
  let main_c : IVec S_ 1 := constantI S_ 1 1#1
  let main_v3 : IVec S_ 1 := (fun x v => Host.reduce IntOp.andi x v reducesTo_S1x4096_S_d0_1 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192x64 .f32 := Host.absf main_arg3
  let main_cst_4 : FVec F S_ .f32 := constant S_ .f32 0x7F800000#32
  let main_v15 : FVec F S8192x64 .f32 := broadcastInDim S8192x64 ![] bcast_S_S8192x64 main_cst_4
  let main_v16 : IVec S8192x64 1 := cmpf .olt main_v14 main_v15
  fn_part1 (F := F) main_arg4 main_arg5 main_arg6 main_arg7 main_arg8 main_v13 main_v16
-- ==== Kernel.lean ====
abbrev S1x4096 : Shape := ⟨2, ![1, 4096]⟩
abbrev S4096x8192 : Shape := ⟨2, ![4096, 8192]⟩
abbrev S8192 : Shape := ⟨1, ![8192]⟩
abbrev S8192x64 : Shape := ⟨2, ![8192, 64]⟩
abbrev S64 : Shape := ⟨1, ![64]⟩
abbrev S1x8192 : Shape := ⟨2, ![1, 8192]⟩
abbrev S1x64 : Shape := ⟨2, ![1, 64]⟩
abbrev S2x1x64 : Shape := ⟨3, ![2, 1, 64]⟩
abbrev S4096x512 : Shape := ⟨2, ![4096, 512]⟩
abbrev S1x512 : Shape := ⟨2, ![1, 512]⟩
abbrev S512x64 : Shape := ⟨2, ![512, 64]⟩
abbrev S1x1x64 : Shape := ⟨3, ![1, 1, 64]⟩
abbrev S_ : Shape := ⟨0, ![]⟩

abbrev nBuf : Space → Nat
  | .hbm => 43
  | .vmem => 18
  | .smem => 0
  | _ => 0

abbrev bufTy : (tb : Table) → Fin (tcTables nBuf tb) → BufTy
  | .hbm, ⟨0, _⟩ => ⟨S1x4096, .f32⟩
  | .hbm, ⟨1, _⟩ => ⟨S4096x8192, .f32⟩
  | .hbm, ⟨2, _⟩ => ⟨S8192, .f32⟩
  | .hbm, ⟨3, _⟩ => ⟨S8192x64, .f32⟩
  | .hbm, ⟨4, _⟩ => ⟨S64, .f32⟩
  | .hbm, ⟨5, _⟩ => ⟨S4096x8192, .f32⟩
  | .hbm, ⟨6, _⟩ => ⟨S8192, .f32⟩
  | .hbm, ⟨7, _⟩ => ⟨S8192x64, .f32⟩
  | .hbm, ⟨8, _⟩ => ⟨S64, .f32⟩
  | .hbm, ⟨9, _⟩ => ⟨S1x8192, .f32⟩
  | .hbm, ⟨10, _⟩ => ⟨S1x8192, .f32⟩
  | .hbm, ⟨11, _⟩ => ⟨S1x64, .f32⟩
  | .hbm, ⟨12, _⟩ => ⟨S1x64, .f32⟩
  | .hbm, ⟨13, _⟩ => ⟨S2x1x64, .f32⟩
  | .hbm, ⟨14, _⟩ => ⟨S1x1x64, .f32⟩
  | .hbm, ⟨15, _⟩ => ⟨S1x64, .f32⟩
  | .hbm, ⟨16, _⟩ => ⟨S1x1x64, .f32⟩
  | .hbm, ⟨17, _⟩ => ⟨S1x64, .f32⟩
  | .hbm, ⟨18, _⟩ => ⟨S_, .f32⟩
  | .hbm, ⟨19, _⟩ => ⟨S1x64, .f32⟩
  | .hbm, ⟨20, _⟩ => ⟨S1x64, .i1⟩
  | .hbm, ⟨21, _⟩ => ⟨S_, .f32⟩
  | .hbm, ⟨22, _⟩ => ⟨S1x64, .f32⟩
  | .hbm, ⟨23, _⟩ => ⟨S1x64, .i1⟩
  | .hbm, ⟨24, _⟩ => ⟨S_, .f32⟩
  | .hbm, ⟨25, _⟩ => ⟨S1x64, .f32⟩
  | .hbm, ⟨26, _⟩ => ⟨S1x64, .i1⟩
  | .hbm, ⟨27, _⟩ => ⟨S_, .f32⟩
  | .hbm, ⟨28, _⟩ => ⟨S1x64, .f32⟩
  | .hbm, ⟨29, _⟩ => ⟨S1x64, .i1⟩
  | .hbm, ⟨30, _⟩ => ⟨S1x64, .i1⟩
  | .hbm, ⟨31, _⟩ => ⟨S1x64, .f32⟩
  | .hbm, ⟨32, _⟩ => ⟨S_, .f32⟩
  | .hbm, ⟨33, _⟩ => ⟨S1x64, .f32⟩
  | .hbm, ⟨34, _⟩ => ⟨S1x64, .f32⟩
  | .hbm, ⟨35, _⟩ => ⟨S1x64, .i1⟩
  | .hbm, ⟨36, _⟩ => ⟨S1x64, .i1⟩
  | .hbm, ⟨37, _⟩ => ⟨S_, .f32⟩
  | .hbm, ⟨38, _⟩ => ⟨S_, .f32⟩
  | .hbm, ⟨39, _⟩ => ⟨S1x64, .f32⟩
  | .hbm, ⟨40, _⟩ => ⟨S1x64, .f32⟩
  | .hbm, ⟨41, _⟩ => ⟨S1x64, .f32⟩
  | .hbm, ⟨42, _⟩ => ⟨S1x64, .f32⟩
  | .local _ .vmem, ⟨0, _⟩ => ⟨S1x4096, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S512x64, .f32⟩
  | .local _ .vmem, ⟨6, _⟩ => ⟨S512x64, .f32⟩
  | .local _ .vmem, ⟨7, _⟩ => ⟨S1x64, .f32⟩
  | .local _ .vmem, ⟨8, _⟩ => ⟨S4096x512, .f32⟩
  | .local _ .vmem, ⟨9, _⟩ => ⟨S4096x512, .f32⟩
  | .local _ .vmem, ⟨10, _⟩ => ⟨S1x512, .f32⟩
  | .local _ .vmem, ⟨11, _⟩ => ⟨S1x512, .f32⟩
  | .local _ .vmem, ⟨12, _⟩ => ⟨S512x64, .f32⟩
  | .local _ .vmem, ⟨13, _⟩ => ⟨S512x64, .f32⟩
  | .local _ .vmem, ⟨14, _⟩ => ⟨S1x64, .f32⟩
  | .local _ .vmem, ⟨15, _⟩ => ⟨S1x1x64, .f32⟩
  | .local _ .vmem, ⟨16, _⟩ => ⟨S1x1x64, .f32⟩
  | .local _ .vmem, ⟨17, _⟩ => ⟨S1x64, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![2, 16], ![false, false]⟩

def k0_cond4 (i : grid0.Coords) : BitVec 1 :=
  let arg1 : BitVec 32 := BitVec.ofNat 32 (i 1).val
  let c15_i32 : BitVec 32 := 15#32
  let v10 : BitVec 1 := Scalar.cmpi .eq arg1 c15_i32
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![c0_i32_1.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![c0_i32_1.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![c0_i32_0.toNat, v1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![c0_i32_0.toNat, v1.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S4096x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  shapeCasts_S8192_S1x8192 : S8192.ShapeCasts S1x8192
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x4096_S1x4096_0_0 : ∀ a, (![0, 0] : Fin 2 → Nat) a + S1x4096.size a ≤ S1x4096.size a
  h_S1x4096 : 0 < S1x4096.numel
  inb_S4096x512_S4096x512_0_0 : ∀ a, (![0, 0] : Fin 2 → Nat) a + S4096x512.size a ≤ S4096x512.size a
  h_S4096x512 : 0 < S4096x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S512x64_S512x64_0_0 : ∀ a, (![0, 0] : Fin 2 → Nat) a + S512x64.size a ≤ S512x64.size a
  h_S512x64 : 0 < S512x64.numel
  shapeCasts_S1x64_S1x1x64 : S1x64.ShapeCasts S1x1x64
  inb_S1x1x64_S1x1x64_0_0_0 : ∀ a, (![0, 0, 0] : Fin 3 → Nat) a + S1x1x64.size a ≤ S1x1x64.size a
  h_S1x1x64 : 0 < S1x1x64.numel
  slices_S2x1x64_S1x1x64_0_0_0 : S2x1x64.Slices ![0, 0, 0] S1x1x64
  shapeCasts_S1x1x64_S1x64 : S1x1x64.ShapeCasts S1x64
  slices_S2x1x64_S1x1x64_1_0_0 : S2x1x64.Slices ![1, 0, 0] S1x1x64
  bcast_S_S1x64 : S_.BroadcastsInDim S1x64 (![] : Fin 0 → Fin S1x64.rank)
  dot_S1x4096_S4096x512_S1x512_1_0_0_1_n_n_wf : DotDims.WF S1x4096 S4096x512 S1x512 [1] [0] [0] [1] [] []
  dot_S1x512_S512x64_S1x64_1_0_0_1_n_n_wf : DotDims.WF S1x512 S512x64 S1x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x4096.size a ≤ S1x4096.size a
  hwx0_0 : ∀ i : grid0.Coords, EltTy.bits .f32 = 32 ∨ (Rect.block (s := S1x4096) S1x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x8192.size a
  hwx0_1 : ∀ i : grid0.Coords, EltTy.bits .f32 = 32 ∨ (Rect.block (s := S4096x8192) S4096x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x8192.size a
  hwx0_2 : ∀ i : grid0.Coords, EltTy.bits .f32 = 32 ∨ (Rect.block (s := S1x8192) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S8192x64.size a
  hwx0_3 : ∀ i : grid0.Coords, EltTy.bits .f32 = 32 ∨ (Rect.block (s := S8192x64) S512x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x512.size a ≤ S4096x8192.size a
  hwx0_5 : ∀ i : grid0.Coords, EltTy.bits .f32 = 32 ∨ (Rect.block (s := S4096x8192) S4096x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x8192.size a
  hwx0_6 : ∀ i : grid0.Coords, EltTy.bits .f32 = 32 ∨ (Rect.block (s := S1x8192) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x64.size a ≤ S8192x64.size a
  hwx0_7 : ∀ i : grid0.Coords, EltTy.bits .f32 = 32 ∨ (Rect.block (s := S8192x64) S512x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x64.size a ≤ S2x1x64.size a
  hwx0_9 : ∀ i : grid0.Coords, EltTy.bits .f32 = 32 ∨ (Rect.block (s := S2x1x64) S1x1x64.size (cc0_transform_9 i) (hinb0_9 i)).WholeWords (EltTy.packing .f32)

variable [Facts₀]

def dot_S1x4096_S4096x512_S1x512_1_0_0_1_n_n : DotDims S1x4096 S4096x512 S1x512 where
  lhsContracting := [1]
  rhsContracting := [0]
  lhsNonContracting := [0]
  rhsNonContracting := [1]
  lhsBatch := []
  rhsBatch := []
  wf := dot_S1x4096_S4096x512_S1x512_1_0_0_1_n_n_wf
def dot_S1x512_S512x64_S1x64_1_0_0_1_n_n : DotDims S1x512 S512x64 S1x64 where
  lhsContracting := [1]
  rhsContracting := [0]
  lhsNonContracting := [0]
  rhsNonContracting := [1]
  lhsBatch := []
  rhsBatch := []
  wf := dot_S1x512_S512x64_S1x64_1_0_0_1_n_n_wf

abbrev win0_0 : Pipeline.Window sig grid0 :=
  Pipeline.Window.ofSpec (Memref.whole main_arg0) S1x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4096x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512x64.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1x1x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond4 i == 1#1) | ⟨_ + 10, h⟩ => absurd h (Nat.not_lt.2 (Nat.le_add_left _ _))

class Facts : Prop extends Facts₀ where

variable [Facts]
-- ==== ReferenceIdeal.lean ====
abbrev S1x4096 : Shape := ⟨2, ![1, 4096]⟩
abbrev S4096x8192 : Shape := ⟨2, ![4096, 8192]⟩
abbrev S8192 : Shape := ⟨1, ![8192]⟩
abbrev S8192x64 : Shape := ⟨2, ![8192, 64]⟩
abbrev S64 : Shape := ⟨1, ![64]⟩
abbrev S1x8192 : Shape := ⟨2, ![1, 8192]⟩
abbrev S_ : Shape := ⟨0, ![]⟩
abbrev S1x64 : Shape := ⟨2, ![1, 64]⟩

abbrev nBuf : Space → Nat
  | .hbm => 58
  | .vmem => 0
  | .smem => 0
  | _ => 0

abbrev bufTy : (tb : Table) → Fin (tcTables nBuf tb) → BufTy
  | .hbm, ⟨0, _⟩ => ⟨S1x4096, .f32⟩
  | .hbm, ⟨1, _⟩ => ⟨S4096x8192, .f32⟩
  | .hbm, ⟨2, _⟩ => ⟨S8192, .f32⟩
  | .hbm, ⟨3, _⟩ => ⟨S8192x64, .f32⟩
  | .hbm, ⟨4, _⟩ => ⟨S64, .f32⟩
  | .hbm, ⟨5, _⟩ => ⟨S4096x8192, .f32⟩
  | .hbm, ⟨6, _⟩ => ⟨S8192, .f32⟩
  | .hbm, ⟨7, _⟩ => ⟨S8192x64, .f32⟩
  | .hbm, ⟨8, _⟩ => ⟨S64, .f32⟩
  | .hbm, ⟨9, _⟩ => ⟨S1x8192, .f32⟩
  | .hbm, ⟨10, _⟩ => ⟨S1x8192, .f32⟩
  | .hbm, ⟨11, _⟩ => ⟨S1x8192, .f32⟩
  | .hbm, ⟨12, _⟩ => ⟨S_, .f32⟩
  | .hbm, ⟨13, _⟩ => ⟨S1x8192, .f32⟩
  | .hbm, ⟨14, _⟩ => ⟨S1x8192, .f32⟩
  | .hbm, ⟨15, _⟩ => ⟨S1x64, .f32⟩
  | .hbm, ⟨16, _⟩ => ⟨S1x64, .f32⟩
  | .hbm, ⟨17, _⟩ => ⟨S1x64, .f32⟩
  | .hbm, ⟨18, _⟩ => ⟨S_, .f32⟩
  | .hbm, ⟨19, _⟩ => ⟨S1x64, .f32⟩
  | .hbm, ⟨20, _⟩ => ⟨S1x64, .f32⟩
  | .hbm, ⟨21, _⟩ => ⟨S1x8192, .f32⟩
  | .hbm, ⟨22, _⟩ => ⟨S1x8192, .f32⟩
  | .hbm, ⟨23, _⟩ => ⟨S1x8192, .f32⟩
  | .hbm, ⟨24, _⟩ => ⟨S_, .f32⟩
  | .hbm, ⟨25, _⟩ => ⟨S1x8192, .f32⟩
  | .hbm, ⟨26, _⟩ => ⟨S1x8192, .f32⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S_, .f32⟩
  | .hbm, ⟨31, _⟩ => ⟨S1x64, .f32⟩
  | .hbm, ⟨32, _⟩ => ⟨S1x64, .f32⟩
  | .hbm, ⟨33, _⟩ => ⟨S_, .f32⟩
  | .hbm, ⟨34, _⟩ => ⟨S1x64, .f32⟩
  | .hbm, ⟨35, _⟩ => ⟨S1x64, .i1⟩
  | .hbm, ⟨36, _⟩ => ⟨S_, .f32⟩
  | .hbm, ⟨37, _⟩ => ⟨S1x64, .f32⟩
  | .hbm, ⟨38, _⟩ => ⟨S1x64, .i1⟩
  | .hbm, ⟨39, _⟩ => ⟨S_, .f32⟩
  | .hbm, ⟨40, _⟩ => ⟨S1x64, .f32⟩
  | .hbm, ⟨41, _⟩ => ⟨S1x64, .i1⟩
  | .hbm, ⟨42, _⟩ => ⟨S_, .f32⟩
  | .hbm, ⟨43, _⟩ => ⟨S1x64, .f32⟩
  | .hbm, ⟨44, _⟩ => ⟨S1x64, .i1⟩
  | .hbm, ⟨45, _⟩ => ⟨S1x64, .i1⟩
  | .hbm, ⟨46, _⟩ => ⟨S1x64, .f32⟩
  | .hbm, ⟨47, _⟩ => ⟨S_, .f32⟩
  | .hbm, ⟨48, _⟩ => ⟨S1x64, .f32⟩
  | .hbm, ⟨49, _⟩ => ⟨S1x64, .f32⟩
  | .hbm, ⟨50, _⟩ => ⟨S1x64, .i1⟩
  | .hbm, ⟨51, _⟩ => ⟨S1x64, .i1⟩
  | .hbm, ⟨52, _⟩ => ⟨S_, .f32⟩
  | .hbm, ⟨53, _⟩ => ⟨S_, .f32⟩
  | .hbm, ⟨54, _⟩ => ⟨S1x64, .f32⟩
  | .hbm, ⟨55, _⟩ => ⟨S1x64, .f32⟩
  | .hbm, ⟨56, _⟩ => ⟨S1x64, .f32⟩
  | .hbm, ⟨57, _⟩ => ⟨S1x64, .f32⟩
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_call0_cst : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_call1_cst : Ref sig .tc := ⟨.hbm, 18, rfl⟩
abbrev main_call1_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_call2_cst : Ref sig .tc := ⟨.hbm, 24, rfl⟩
abbrev main_call2_v0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_call3_cst : Ref sig .tc := ⟨.hbm, 30, rfl⟩
abbrev main_call3_v0 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_v17 : Ref sig .tc := ⟨.hbm, 35, rfl⟩
abbrev main_cst_0 : Ref sig .tc := ⟨.hbm, 36, rfl⟩
abbrev main_v18 : Ref sig .tc := ⟨.hbm, 37, rfl⟩
abbrev main_v19 : Ref sig .tc := ⟨.hbm, 38, rfl⟩
abbrev main_cst_1 : Ref sig .tc := ⟨.hbm, 39, rfl⟩
abbrev main_v20 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_call4_v0 : Ref sig .tc := ⟨.hbm, 53, rfl⟩
abbrev main_call4_v1 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S_S1x8192 : S_.BroadcastsInDim S1x8192 (![] : Fin 0 → Fin S1x8192.rank)
  bcast_S64_S1x64_1 : S64.BroadcastsInDim S1x64 (![1] : Fin 1 → Fin S1x64.rank)
  bcast_S_S1x64 : S_.BroadcastsInDim S1x64 (![] : Fin 0 → Fin S1x64.rank)
  dot_S1x4096_S4096x8192_S1x8192_1_0_0_1_n_n_wf : DotDims.WF S1x4096 S4096x8192 S1x8192 [1] [0] [0] [1] [] []
  dot_S1x8192_S8192x64_S1x64_1_0_0_1_n_n_wf : DotDims.WF S1x8192 S8192x64 S1x64 [1] [0] [0] [1] [] []

variable [Facts₀]

def dot_S1x4096_S4096x8192_S1x8192_1_0_0_1_n_n : DotDims S1x4096 S4096x8192 S1x8192 where
  lhsContracting := [1]
  rhsContracting := [0]
  lhsNonContracting := [0]
  rhsNonContracting := [1]
  lhsBatch := []
  rhsBatch := []
  wf := dot_S1x4096_S4096x8192_S1x8192_1_0_0_1_n_n_wf
def dot_S1x8192_S8192x64_S1x64_1_0_0_1_n_n : DotDims S1x8192 S8192x64 S1x64 where
  lhsContracting := [1]
  rhsContracting := [0]
  lhsNonContracting := [0]
  rhsNonContracting := [1]
  lhsBatch := []
  rhsBatch := []
  wf := dot_S1x8192_S8192x64_S1x64_1_0_0_1_n_n_wf

class Facts : Prop extends Facts₀ where

variable [Facts]
-- ==== Proof.LibTileSum.lean ====
/-
  Sums over a range cut into equal blocks, and over a square cut into square tiles.

  In a commutative monoid the order and grouping of a finite sum are free. So the sum of `g` over the `A · B` indices
  `0 … A·B − 1` is the sum, over the `A` blocks, of the sum over the `B` indices `B·i … B·i + B − 1` of block `i`; and the sum of
  `f` over a square of side `A · B` is the sum over its `A × A` tiles of the sum over the `B × B` entries of each tile.
  Likewise the sum over the points `t = B·i + j` of an `A × B` grid visited row by row is the double sum over `(i, j)`.
  Only associativity and commutativity of `+` are used, so the laws hold on the extended reals whatever the terms are.
-/
import Mathlib.Algebra.BigOperators.Fin
import Mathlib.Algebra.BigOperators.Intervals
import Mathlib.Logic.Equiv.Fin.Basic
import Mathlib.Tactic

namespace Cert.LibTileSum

open Finset

/-- Index `r` of block `i` lies below `A · B`. -/
theorem blk_lt {A B : ℕ} (i : Fin A) (r : Fin B) : B * i.val + r.val < A * B := by
  have h1 : B * (i.val + 1) ≤ B * A := Nat.mul_le_mul_left B i.isLt
  have h2 := r.isLt
  rw [Nat.mul_add, Nat.mul_one] at h1
  rw [Nat.mul_comm A B]
  omega

/-- Index `r` of block `i`, as an index of the whole range. -/
def blk {A B N : ℕ} (h : A * B = N) (i : Fin A) (r : Fin B) : Fin N := ⟨B * i.val + r.val, h ▸ blk_lt i r⟩

@[simp] theorem blk_val {A B N : ℕ} (h : A * B = N) (i : Fin A) (r : Fin B) : (blk h i r).val = B * i.val + r.val := rfl

/-- A sum over `A · B` indices, taken block by block. -/
theorem sum_blocks {M : Type*} [AddCommMonoid M] {A B N : ℕ} (h : A * B = N) (g : Fin N → M) :
    ∑ x : Fin N, g x = ∑ i : Fin A, ∑ r : Fin B, g (blk h i r) := by
  subst h
  rw [← Equiv.sum_comp finProdFinEquiv g, Fintype.sum_prod_type]
  refine Finset.sum_congr rfl fun i _ => Finset.sum_congr rfl fun r _ => congrArg g (Fin.ext ?_)
  show r.val + B * i.val = B * i.val + r.val
  exact Nat.add_comm _ _

/-- A sum over a square of side `A · B`, taken tile by tile. -/
theorem sum_tiles {M : Type*} [AddCommMonoid M] {A B N : ℕ} (h : A * B = N) (f : Fin N → Fin N → M) :
    ∑ x : Fin N, ∑ y : Fin N, f x y
      = ∑ i : Fin A, ∑ j : Fin A, ∑ r : Fin B, ∑ c : Fin B, f (blk h i r) (blk h j c) := by
  calc ∑ x : Fin N, ∑ y : Fin N, f x y
      = ∑ i : Fin A, ∑ r : Fin B, ∑ y : Fin N, f (blk h i r) y := sum_blocks h _
    _ = ∑ i : Fin A, ∑ r : Fin B, ∑ j : Fin A, ∑ c : Fin B, f (blk h i r) (blk h j c) :=
        Finset.sum_congr rfl fun i _ => Finset.sum_congr rfl fun r _ => sum_blocks h _
    _ = ∑ i : Fin A, ∑ j : Fin A, ∑ r : Fin B, ∑ c : Fin B, f (blk h i r) (blk h j c) :=
        Finset.sum_congr rfl fun i _ => Finset.sum_comm

/-- A sum over the points of an `A × B` grid visited row by row (point `t` has coordinates `(t / B mod A, t mod B)`)
    is the double sum over the coordinates. -/
theorem sum_rowMajor {M : Type*} [AddCommMonoid M] {A B N : ℕ} (h : A * B = N) (hA : 0 < A) (hB : 0 < B)
    (g : Fin A → Fin B → M) :
    ∑ t : Fin N, g ⟨t.val / B % A, Nat.mod_lt _ hA⟩ ⟨t.val % B, Nat.mod_lt _ hB⟩ = ∑ i : Fin A, ∑ j : Fin B, g i j := by
  rw [sum_blocks h]
  refine Finset.sum_congr rfl fun i _ => Finset.sum_congr rfl fun j _ => ?_
  have e1 : (B * i.val + j.val) / B = i.val := by
    rw [Nat.add_comm, Nat.add_mul_div_left _ _ hB, Nat.div_eq_of_lt j.isLt, Nat.zero_add]
  have e2 : (B * i.val + j.val) % B = j.val := by
    rw [Nat.add_comm, Nat.add_mul_mod_self_left, Nat.mod_eq_of_lt j.isLt]
  congr 1
  · exact Fin.ext (by show (B * i.val + j.val) / B % A = i.val; rw [e1, Nat.mod_eq_of_lt i.isLt])
  · exact Fin.ext (by show (B * i.val + j.val) % B = j.val; exact e2)

end Cert.LibTileSum
-- ==== Proof.ChunkedLayer.lean ====
/-
  A two-layer perceptron with rectified units on the extended reals, and its hidden axis cut into chunks.

  For an input row `x` of 4096 entries, a 4096 × 8192 matrix `A`, 8192 biases `b`, an 8192 × 64 matrix `C` and 64 biases `d`,
  hidden unit `k` is `max (∑ i, x i · A i k + b k) 0` and output `j` is `max (∑ k, hidden k · C k j + d j) 0`.

  The hidden axis has 8192 = 16 · 512 units. Chunk `c` contributes `∑ r < 512, hidden (512 c + r) · C (512 c + r) j` to output
  `j`, and the sum over all hidden units is the sum of the sixteen chunk contributions: only the order and grouping of a finite
  sum change, which is free in any commutative monoid, so nothing has to be finite.

  Last, the choice between two such outputs, entry by entry: their mean where both are positive, the positive one where the
  other is zero, and zero elsewhere — stated once, as a function of the two output rows and of the constant rows it compares
  and scales with.
-/
import proofs.«103249_j46866683134472_2_alg».proof.Proof.LibTileSum
import Idealize.ShloMosaic.Lib.ValueIdx
import Idealize.ShloMosaic.PureOps.Ideal.Laws

noncomputable section

open scoped BigOperators

namespace Cert.ChunkedLayer

open Idealize.ShloMosaic Idealize.ShloMosaic.ValueIdx

section Layer

variable (X : (⟨2, ![1, 4096]⟩ : Shape).Idx → EReal) (A : (⟨2, ![4096, 8192]⟩ : Shape).Idx → EReal)
  (b : (⟨1, ![8192]⟩ : Shape).Idx → EReal) (C : (⟨2, ![8192, 64]⟩ : Shape).Idx → EReal)
  (d : (⟨1, ![64]⟩ : Shape).Idx → EReal)

/-- Hidden unit `k`: the rectified affine form of the input row. -/
def hidden (k : Fin 8192) : EReal :=
  max ((∑ i : Fin 4096, X (ix2 (0 : Fin 1) i) * A (ix2 i k)) + b (ix1 k)) 0

/-- What hidden unit `k` adds to output `j` before the output bias. -/
def term (j : Fin 64) (k : Fin 8192) : EReal := hidden X A b k * C (ix2 k j)

/-- Output `j` of the perceptron. -/
def output (j : Fin 64) : EReal := max ((∑ k : Fin 8192, term X A b C j k) + d (ix1 j)) 0

/-- The perceptron's output as a `[1, 64]` row. -/
def outputRow : (⟨2, ![1, 64]⟩ : Shape).Idx → EReal := fun y => output X A b C d (y 1)

/-- Hidden unit `r` of chunk `c` (for `c` below 16 this is unit `512 c + r`; the remainder only keeps the index total). -/
def unitOf (c : ℕ) (r : Fin 512) : Fin 8192 := ⟨(512 * c + r.val) % 8192, Nat.mod_lt _ (by decide)⟩

theorem unitOf_val {c : ℕ} (hc : c < 16) (r : Fin 512) : (unitOf c r).val = 512 * c + r.val := by
  show (512 * c + r.val) % 8192 = 512 * c + r.val
  have := r.isLt
  omega

/-- What chunk `c` of the hidden axis adds to output `j`. -/
def chunkTerm (c : ℕ) (j : Fin 64) : EReal := ∑ r : Fin 512, term X A b C j (unitOf c r)

/-- The sixteen chunk contributions add up to the sum over the whole hidden axis. -/
theorem sum_chunkTerm (j : Fin 64) :
    ∑ c ∈ Finset.range 16, chunkTerm X A b C c j = ∑ k : Fin 8192, term X A b C j k := by
  rw [Cert.LibTileSum.sum_blocks (A := 16) (B := 512) (N := 8192) rfl (term X A b C j),
    ← Fin.sum_univ_eq_sum_range (fun c => chunkTerm X A b C c j) 16]
  refine Finset.sum_congr rfl fun c _ => Finset.sum_congr rfl fun r _ => ?_
  exact congrArg (term X A b C j) (Fin.ext (unitOf_val c.isLt r))

end Layer

/-- The entrywise choice between two rows `o₁`, `o₂` against the constant rows `z` (compared with), `h` (the scale of the
    sum) and `e` (the value elsewhere): `(o₁ + o₂) · h` where both exceed `z`, `o₁` where it exceeds `z` and `o₂` equals
    it, `o₂` in the mirrored case, `e` otherwise. -/
def combine {F : FTy → Type} [FloatOps F] {s : Shape} (z h e o₁ o₂ : FVec F s .f32) : FVec F s .f32 :=
  select (andi (cmpf .ogt o₁ z) (cmpf .ogt o₂ z)) (mulf (addf o₁ o₂) h)
    (select (andi (cmpf .ogt o₁ z) (cmpf .oeq o₂ z)) o₁
      (select (andi (cmpf .oeq o₁ z) (cmpf .ogt o₂ z)) o₂ e))

end Cert.ChunkedLayer

end
-- ==== Proof.RefLayer.lean ====
/-
  The reference computes the two perceptrons and their entrywise choice.

  Read one operation at a time, the reference's first output row is `max (∑ k, hidden k · C k j + d j) 0` with
  `hidden k = max (∑ i, x i · A i k + b k) 0`: its two `dot_general`s are plain sums over the contracted axis on the extended
  reals, its biases are broadcast along the unit row axis, and its rectifications are maxima with a zero row. The second row
  is the same function of the second set of weights. The result is the entrywise choice between the two rows.
-/
import proofs.«103249_j46866683134472_2_alg».proof.Proof.Gen.ReferenceIdeal.Read
import proofs.«103249_j46866683134472_2_alg».proof.Proof.ChunkedLayer
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
open Cert.ChunkedLayer

section Indices

variable (y : S1x64.Idx) (k : Fin 8192) (i : Fin 4096)

theorem lidx_hidden : lidx_main_v0 (lidx_main_v4 y k) i = ix2 (0 : Fin 1) i :=
  funext fun a => by
    match a with
    | ⟨0, _⟩ => exact Subsingleton.elim (α := Fin 1) _ _
    | ⟨1, _⟩ => rfl
theorem ridx_hidden : ridx_main_v0 (lidx_main_v4 y k) i = ix2 i k :=
  funext fun a => by
    match a with
    | ⟨0, _⟩ => rfl
    | ⟨1, _⟩ => rfl
theorem idx_bias₁ : idx_main_v1 (lidx_main_v4 y k) = ix1 k :=
  funext fun a => by
    match a with
    | ⟨0, _⟩ => rfl
theorem ridx_out : ridx_main_v4 y k = ix2 k (y 1) :=
  funext fun a => by
    match a with
    | ⟨0, _⟩ => rfl
    | ⟨1, _⟩ => rfl
theorem idx_bias₂ : idx_main_v5 y = ix1 (y 1) :=
  funext fun a => by
    match a with
    | ⟨0, _⟩ => rfl

end Indices

/-- The first perceptron's output stage is the perceptron's row of its five arrays. -/
theorem first_eq (x0 : FVec Ideal S1x4096 .f32) (x1 : FVec Ideal S4096x8192 .f32) (x2 : FVec Ideal S8192 .f32)
    (x3 : FVec Ideal S8192x64 .f32) (x4 : FVec Ideal S64 .f32) :
    val_main_v7 (F := Ideal) x0 x1 x2 x3 x4 = outputRow x0 x1 x2 x3 x4 := by
  funext y
  rw [val_main_v7_apply, val_main_v6_apply, val_main_v4_apply, val_main_v5_apply, val_main_call1_v0_apply,
    val_main_call1_cst_apply]
  simp only [val_main_v3_apply, val_main_v2_apply, val_main_v0_apply, val_main_v1_apply, val_main_call0_v0_apply,
    val_main_call0_cst_apply, lidx_hidden, ridx_hidden, idx_bias₁, ridx_out, idx_bias₂,
    Ideal.maximumf_def, Ideal.addf_def, Ideal.ofBits_def, Ideal.ofBits_zero_f32]
  rfl

section Indices₂

variable (y : S1x64.Idx) (k : Fin 8192) (i : Fin 4096)

theorem lidx_hidden₂ : lidx_main_v8 (lidx_main_v12 y k) i = ix2 (0 : Fin 1) i :=
  funext fun a => by
    match a with
    | ⟨0, _⟩ => exact Subsingleton.elim (α := Fin 1) _ _
    | ⟨1, _⟩ => rfl
theorem ridx_hidden₂ : ridx_main_v8 (lidx_main_v12 y k) i = ix2 i k :=
  funext fun a => by
    match a with
    | ⟨0, _⟩ => rfl
    | ⟨1, _⟩ => rfl
theorem idx_bias₁' : idx_main_v9 (lidx_main_v12 y k) = ix1 k :=
  funext fun a => by
    match a with
    | ⟨0, _⟩ => rfl
theorem ridx_out₂ : ridx_main_v12 y k = ix2 k (y 1) :=
  funext fun a => by
    match a with
    | ⟨0, _⟩ => rfl
    | ⟨1, _⟩ => rfl
theorem idx_bias₂' : idx_main_v13 y = ix1 (y 1) :=
  funext fun a => by
    match a with
    | ⟨0, _⟩ => rfl

end Indices₂

/-- The second perceptron's output stage is the perceptron's row of its five arrays. -/
theorem second_eq (x0 : FVec Ideal S1x4096 .f32) (x5 : FVec Ideal S4096x8192 .f32) (x6 : FVec Ideal S8192 .f32)
    (x7 : FVec Ideal S8192x64 .f32) (x8 : FVec Ideal S64 .f32) :
    val_main_v15 (F := Ideal) x0 x5 x6 x7 x8 = outputRow x0 x5 x6 x7 x8 := by
  funext y
  rw [val_main_v15_apply, val_main_v14_apply, val_main_v12_apply, val_main_v13_apply, val_main_call3_v0_apply,
    val_main_call3_cst_apply]
  simp only [val_main_v11_apply, val_main_v10_apply, val_main_v8_apply, val_main_v9_apply, val_main_call2_v0_apply,
    val_main_call2_cst_apply, lidx_hidden₂, ridx_hidden₂, idx_bias₁', ridx_out₂, idx_bias₂',
    Ideal.maximumf_def, Ideal.addf_def, Ideal.ofBits_def, Ideal.ofBits_zero_f32]
  rfl

/-- The zero row the reference compares with, its row of halves, and the zero row it falls back to. -/
abbrev zeros : FVec Ideal S1x64 .f32 := broadcastInDim S1x64 ![] bcast_S_S1x64 (constant S_ .f32 0x00000000#32)
abbrev halves : FVec Ideal S1x64 .f32 := broadcastInDim S1x64 ![] bcast_S_S1x64 (constant S_ .f32 0x3F000000#32)

/-- The reference's result is the entrywise choice between the two perceptrons' rows. -/
theorem result_eq (x0 : FVec Ideal S1x4096 .f32) (x1 : FVec Ideal S4096x8192 .f32) (x2 : FVec Ideal S8192 .f32)
    (x3 : FVec Ideal S8192x64 .f32) (x4 : FVec Ideal S64 .f32) (x5 : FVec Ideal S4096x8192 .f32) (x6 : FVec Ideal S8192 .f32)
    (x7 : FVec Ideal S8192x64 .f32) (x8 : FVec Ideal S64 .f32) :
    val_main_v32 (F := Ideal) x0 x1 x2 x3 x4 x5 x6 x7 x8
      = combine zeros halves zeros (outputRow x0 x1 x2 x3 x4) (outputRow x0 x5 x6 x7 x8) := by
  rw [← first_eq, ← second_eq]
  rfl

end Cert.ReferenceIdeal.RefValue

end
-- ==== Proof.LibPlainDot.lean ====
/-
  A plain matrix product read at an entry, on the extended reals.

  For an `m × k` matrix `A` and a `k × n` matrix `B` the product contracted over the shared axis has, at `(a, b)`, the
  value `∑ c, A (a, c) · B (c, b)`. On the extended reals a kernel's matrix unit accumulating into a zero tile and the
  host's product are this same sum: there is no rounding and no order of accumulation to tell them apart.
-/
import Idealize.ShloMosaic.PureOps.Ideal.Laws
import Idealize.ShloMosaic.Lib.ValueIdx
import Idealize.ShloMosaic.Lib.StackMember
import Idealize.ShloMosaic.Lib.ValueLayout

namespace Cert.LibPlainDot

open Idealize.ShloMosaic Idealize.ShloMosaic.ValueIdx

/-- A matrix unit's product into the zero tile is the host's product of the same operands, entry by entry. -/
theorem matmul_zero_eq_dotGeneral {sl sr so : Shape} {φ₁ φ₂ : FTy} (d : DotDims sl sr so) (prec : Option ContractPrecision)
    (A : FVec Ideal sl φ₁) (B : FVec Ideal sr φ₂) (j : so.Idx) :
    FloatOps.matmul d prec A B (constant (F := Ideal) so .f32 0x00000000#32) j = Host.dotGeneral (F := Ideal) d none A B j :=
  (Ideal.matmul_constant_zero_apply d prec A B j).trans (Ideal.dotGeneral_apply d none .single A B j).symm

/-- The plain product into the zero tile, at `(a, b)`, is `∑ c, A (a, c) · B (c, b)`. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) :=
  (matmul_zero_eq_dotGeneral (DotDims.plain m k n) prec A B (ix2 a b)).trans
    (StackMember.dotGeneral_plain_apply none A B a b)

/-- The plain product with the right operand given transposed: at `(a, b)` it is `∑ c, A (a, c) · B (b, c)`. -/
theorem matmul_plain_transposed_apply {m k n : ℕ} {φ₁ φ₂ : FTy} (prec : Option ContractPrecision)
    (A : FVec Ideal ⟨2, ![m, k]⟩ φ₁) (B : FVec Ideal ⟨2, ![n, k]⟩ φ₂)
    (h : (⟨2, ![n, k]⟩ : Shape).Transposes [1, 0] ⟨2, ![k, n]⟩) (a : Fin m) (b : Fin n) :
    FloatOps.matmul (DotDims.plain m k n) prec A (transpose ⟨2, ![k, n]⟩ [1, 0] B h)
        (constant (F := Ideal) ⟨2, ![m, n]⟩ .f32 0x00000000#32) (ix2 a b)
      = ∑ c : Fin k, A (ix2 a c) * B (ix2 b c) :=
  (matmul_plain_zero_apply prec A _ a b).trans
    (Finset.sum_congr rfl fun c _ => congrArg (A (ix2 a c) * ·) (transpose_ix2_apply B h c b))

/-- The host's plain product with the right operand given transposed: at `(a, b)` it is `∑ c, A (a, c) · B (b, c)`. -/
theorem dotGeneral_plain_transposed_apply {m k n : ℕ} {φ₁ φ₂ : FTy} (prec : Option ContractPrecision)
    (A : FVec Ideal ⟨2, ![m, k]⟩ φ₁) (B : FVec Ideal ⟨2, ![n, k]⟩ φ₂)
    (h : (⟨2, ![n, k]⟩ : Shape).Transposes [1, 0] ⟨2, ![k, n]⟩) (a : Fin m) (b : Fin n) :
    Host.dotGeneral (F := Ideal) (DotDims.plain m k n) prec A (transpose ⟨2, ![k, n]⟩ [1, 0] B h) (ix2 a b)
      = ∑ c : Fin k, A (ix2 a c) * B (ix2 b c) :=
  (StackMember.dotGeneral_plain_apply prec A _ a b).trans
    (Finset.sum_congr rfl fun c _ => congrArg (A (ix2 a c) * ·) (transpose_ix2_apply B h c b))

end Cert.LibPlainDot
-- ==== Proof.StepPayload.lean ====
/-
  What the kernel body's stores hold, entry by entry, on the extended reals.

  At one grid point the body sees the input row `x` (1 × 4096), one 4096 × 512 column block `w₁` of the first matrix with the
  matching 1 × 512 block `b₁` of its biases, and the matching 512 × 64 row block `w₂` of the second matrix. It adds to the
  running row `acc` (1 × 64), at entry `j`, the block's contribution
  `∑ r < 512, max (∑ i < 4096, x i · w₁ i r + b₁ r) 0 · w₂ r j`: two plain matrix products into zero tiles, a bias and a
  rectification between them. At the last chunk it stores `max (acc j + bias j) 0`, the bias row chosen by which of the two
  perceptrons the point belongs to, as a 1 × 1 × 64 block.
-/
import proofs.«103249_j46866683134472_2_alg».proof.Proof.Gen.KernelIdeal.Skeleton
import proofs.«103249_j46866683134472_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- What one chunk's blocks add to output `j`. -/
def blockTerm (x : FVec Ideal S1x4096 .f32) (w₁ : FVec Ideal S4096x512 .f32) (b₁ : FVec Ideal S1x512 .f32)
    (w₂ : FVec Ideal S512x64 .f32) (j : Fin 64) : EReal :=
  ∑ r : Fin 512, max ((∑ i : Fin 4096, x (ix2 (0 : Fin 1) i) * w₁ (ix2 i r)) + b₁ (ix2 (0 : Fin 1) r)) 0 * w₂ (ix2 r j)

/-- The rectified hidden block at unit `r`. -/
theorem hiddenBlock_apply (x : FVec Ideal S1x4096 .f32) (w₁ : FVec Ideal S4096x512 .f32) (b₁ : FVec Ideal S1x512 .f32) (r : Fin 512) :
    maximumf (F := Ideal) (addf (matmul dot_S1x4096_S4096x512_S1x512_1_0_0_1_n_n (some .fp32) x w₁ (constant S1x512 .f32 0x00000000#32))
        (shapeCast S1x512 b₁ shapeCasts_S1x512_S1x512)) (broadcast S1x512 (Scalar.ofBits .f32 0x00000000#32)) (ix2 (0 : Fin 1) r)
      = max ((∑ i : Fin 4096, x (ix2 (0 : Fin 1) i) * w₁ (ix2 i r)) + b₁ (ix2 (0 : Fin 1) r)) 0 := by
  refine (maximumf_apply _ _ _).trans ?_
  refine congrArg₂ max ((addf_apply _ _ _).trans (congrArg₂ (· + ·) ?_ ?_)) ?_
  · exact Cert.LibPlainDot.matmul_plain_zero_apply (some .fp32) x w₁ (0 : Fin 1) r
  · rw [shapeCast_self]
  · exact Ideal.ofBits_zero_f32

/-- The accumulating store's value at entry `(u, j)`: the running row there plus the block's contribution. -/
theorem accumulate_apply (x : FVec Ideal S1x4096 .f32) (w₁ : FVec Ideal S4096x512 .f32) (b₁ : FVec Ideal S1x512 .f32)
    (w₂ : FVec Ideal S512x64 .f32) (acc : FVec Ideal S1x64 .f32) (j : Fin 64) :
    k0_pay2 (F := Ideal) x w₁ b₁ w₂ acc (ix2 (0 : Fin 1) j) = acc (ix2 (0 : Fin 1) j) + blockTerm x w₁ b₁ w₂ j := by
  unfold k0_pay2
  rw [shapeCast_self]
  refine (addf_apply _ _ _).trans (congrArg (acc (ix2 (0 : Fin 1) j) + ·) ?_)
  refine (Cert.LibPlainDot.matmul_plain_zero_apply (some .fp32) _ w₂ (0 : Fin 1) j).trans ?_
  exact Finset.sum_congr rfl fun r _ => congrArg (· * w₂ (ix2 r j)) (hiddenBlock_apply x w₁ b₁ r)

/-- The second perceptron's accumulating store is the same function of its blocks. -/
theorem accumulate_apply' (x : FVec Ideal S1x4096 .f32) (w₁ : FVec Ideal S4096x512 .f32) (b₁ : FVec Ideal S1x512 .f32)
    (w₂ : FVec Ideal S512x64 .f32) (acc : FVec Ideal S1x64 .f32) (j : Fin 64) :
    k0_pay3 (F := Ideal) x w₁ b₁ w₂ acc (ix2 (0 : Fin 1) j) = acc (ix2 (0 : Fin 1) j) + blockTerm x w₁ b₁ w₂ j :=
  accumulate_apply x w₁ b₁ w₂ acc j

/-- The zero row the first chunk starts from. -/
theorem zeroRow_apply (y : S1x64.Idx) : k0_pay1 (F := Ideal) y = 0 := by
  unfold k0_pay1
  rw [shapeCast_self]
  exact Ideal.ofBits_zero_f32

/-- The final store at `(u, v, j)`: the running row plus the chosen bias row, rectified. -/
theorem finish_apply (i : grid0.Coords) (d₁ d₂ acc : FVec Ideal S1x64 .f32) (u v : Fin 1) (j : Fin 64) :
    k0_pay4 (F := Ideal) i d₁ d₂ acc (ix3 u v j)
      = max (acc (ix2 v j) + (if (i 0).val = 0 then d₁ else d₂) (ix2 v j)) 0 := by
  unfold k0_pay4
  rw [shapeCast_self, shapeCast_self]
  refine (shapeCast_ab_1ab_apply _ shapeCasts_S1x64_S1x1x64 u v j).trans ?_
  refine (maximumf_apply _ _ _).trans (congrArg₂ max ((addf_apply _ _ _).trans (congrArg (acc (ix2 v j) + ·) ?_)) Ideal.ofBits_zero_f32)
  exact congrFun (select_eq0 (i 0).val (i 0).isLt d₁ d₂) (ix2 v j)

end Cert.KernelIdeal.Payload

end
-- ==== Proof.Pieces.lean ====
/-
  What each control case of the kernel body leaves behind, as values.

  The body has six cases: the first, a middle, or the last chunk of the hidden axis, for the first or the second perceptron.
  In each case the running row (the scratch the kernel carries from point to point) ends as the accumulating store's value
  of the point's input blocks — over the zero row at a first chunk, over what the point before left otherwise — and at a last
  chunk the output block ends as the final store's value of the two bias rows and the finished running row. These hold for
  every reading of the float operations; nothing here depends on what the operations compute.
-/
import proofs.«103249_j46866683134472_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem
open Idealize.ShloMosaic.Pipeline (Dat)

variable {F : FTy → Type} [FloatOps F]

/-- The zero offsets of a rank-2 and of a rank-3 rectangle. -/
theorem hz2 : (![0, 0] : Fin 2 → Nat) = fun _ => 0 := funext fun a => by fin_cases a <;> rfl
theorem hz3 : (![0, 0, 0] : Fin 3 → Nat) = fun _ => 0 := funext fun a => by fin_cases a <;> rfl

/-- The running row after the first chunk of the first perceptron: the row is zeroed, then the chunk's contribution is added to the zero row. -/
theorem scratch_A (c : Dev nD) (i : grid0.Coords) (arg2 : Memref sig .tc .vmem S1x4096 .f32) (harg2 : arg2.IsWhole) (arg3 : Memref sig .tc .vmem S4096x512 .f32) (harg3 : arg3.IsWhole) (arg4 : Memref sig .tc .vmem S1x512 .f32) (harg4 : arg4.IsWhole) (arg5 : Memref sig .tc .vmem S512x64 .f32) (harg5 : arg5.IsWhole) (arg6 : Memref sig .tc .vmem S1x64 .f32) (harg6 : arg6.IsWhole) (arg7 : Memref sig .tc .vmem S4096x512 .f32) (harg7 : arg7.IsWhole) (arg8 : Memref sig .tc .vmem S1x512 .f32) (harg8 : arg8.IsWhole) (arg9 : Memref sig .tc .vmem S512x64 .f32) (harg9 : arg9.IsWhole) (arg10 : Memref sig .tc .vmem S1x64 .f32) (harg10 : arg10.IsWhole) (arg11 : Memref sig .tc .vmem S1x1x64 .f32) (harg11 : arg11.IsWhole) (arg12 : Memref sig .tc .vmem S1x64 .f32) (harg12 : arg12.IsWhole) (hc0 : cond0_0 i) (hc1 : cond0_1 i) (hc2 : ¬cond0_2 i) (hc3 : ¬cond0_3 i)
    (x0 : Vec F S1x4096 .f32) (x1 : Vec F S4096x512 .f32) (x2 : Vec F S1x512 .f32) (x3 : Vec F S512x64 .f32) (x4 : Vec F S1x64 .f32) (x5 : Vec F S4096x512 .f32) (x6 : Vec F S1x512 .f32) (x7 : Vec F S512x64 .f32) (x8 : Vec F S1x64 .f32) :
    sout0_A_0 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 = k0_pay2 x0 x1 x2 x3 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8)]
  unfold kernelRun0_A
  dsimp only
  sl_unfold_words
  rw [View.canon_cons_unit_zero (S := S1x64) hz2, View.readCov_unit_zero (S := S1x64) _ hz2]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x4096) hz2, View.ld_unit_zero (S := S4096x512) hz2, View.ld_unit_zero (S := S1x512) hz2, View.ld_unit_zero (S := S512x64) hz2, View.ld_unit_zero (S := S1x64) hz2, View.ld_unit_zero (S := S1x1x64) hz3]

/-- The running row after a middle chunk of the first perceptron: the chunk's contribution is added to the row the point before left. -/
theorem scratch_B (c : Dev nD) (i : grid0.Coords) (arg2 : Memref sig .tc .vmem S1x4096 .f32) (harg2 : arg2.IsWhole) (arg3 : Memref sig .tc .vmem S4096x512 .f32) (harg3 : arg3.IsWhole) (arg4 : Memref sig .tc .vmem S1x512 .f32) (harg4 : arg4.IsWhole) (arg5 : Memref sig .tc .vmem S512x64 .f32) (harg5 : arg5.IsWhole) (arg6 : Memref sig .tc .vmem S1x64 .f32) (harg6 : arg6.IsWhole) (arg7 : Memref sig .tc .vmem S4096x512 .f32) (harg7 : arg7.IsWhole) (arg8 : Memref sig .tc .vmem S1x512 .f32) (harg8 : arg8.IsWhole) (arg9 : Memref sig .tc .vmem S512x64 .f32) (harg9 : arg9.IsWhole) (arg10 : Memref sig .tc .vmem S1x64 .f32) (harg10 : arg10.IsWhole) (arg11 : Memref sig .tc .vmem S1x1x64 .f32) (harg11 : arg11.IsWhole) (arg12 : Memref sig .tc .vmem S1x64 .f32) (harg12 : arg12.IsWhole) (hc0 : ¬cond0_0 i) (hc1 : cond0_1 i) (hc2 : ¬cond0_2 i) (hc3 : ¬cond0_3 i)
    (x0 : Vec F S1x4096 .f32) (x1 : Vec F S4096x512 .f32) (x2 : Vec F S1x512 .f32) (x3 : Vec F S512x64 .f32) (x4 : Vec F S1x64 .f32) (x5 : Vec F S4096x512 .f32) (x6 : Vec F S1x512 .f32) (x7 : Vec F S512x64 .f32) (x8 : Vec F S1x64 .f32) (xs0 : Vec F S1x64 .f32) :
    sout0_B_0 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 xs0 = k0_pay2 x0 x1 x2 x3 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 xs0)]
  unfold kernelRun0_B
  dsimp only
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x4096) hz2, View.ld_unit_zero (S := S4096x512) hz2, View.ld_unit_zero (S := S1x512) hz2, View.ld_unit_zero (S := S512x64) hz2, View.ld_unit_zero (S := S1x64) hz2, View.ld_unit_zero (S := S1x1x64) hz3]

/-- The running row after the last chunk of the first perceptron: the chunk's contribution is added to the row the point before left. -/
theorem scratch_C (c : Dev nD) (i : grid0.Coords) (arg2 : Memref sig .tc .vmem S1x4096 .f32) (harg2 : arg2.IsWhole) (arg3 : Memref sig .tc .vmem S4096x512 .f32) (harg3 : arg3.IsWhole) (arg4 : Memref sig .tc .vmem S1x512 .f32) (harg4 : arg4.IsWhole) (arg5 : Memref sig .tc .vmem S512x64 .f32) (harg5 : arg5.IsWhole) (arg6 : Memref sig .tc .vmem S1x64 .f32) (harg6 : arg6.IsWhole) (arg7 : Memref sig .tc .vmem S4096x512 .f32) (harg7 : arg7.IsWhole) (arg8 : Memref sig .tc .vmem S1x512 .f32) (harg8 : arg8.IsWhole) (arg9 : Memref sig .tc .vmem S512x64 .f32) (harg9 : arg9.IsWhole) (arg10 : Memref sig .tc .vmem S1x64 .f32) (harg10 : arg10.IsWhole) (arg11 : Memref sig .tc .vmem S1x1x64 .f32) (harg11 : arg11.IsWhole) (arg12 : Memref sig .tc .vmem S1x64 .f32) (harg12 : arg12.IsWhole) (hc0 : ¬cond0_0 i) (hc1 : cond0_1 i) (hc2 : ¬cond0_2 i) (hc3 : cond0_3 i)
    (x0 : Vec F S1x4096 .f32) (x1 : Vec F S4096x512 .f32) (x2 : Vec F S1x512 .f32) (x3 : Vec F S512x64 .f32) (x4 : Vec F S1x64 .f32) (x5 : Vec F S4096x512 .f32) (x6 : Vec F S1x512 .f32) (x7 : Vec F S512x64 .f32) (x8 : Vec F S1x64 .f32) (xs0 : Vec F S1x64 .f32) :
    sout0_C_0 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 xs0 = k0_pay2 x0 x1 x2 x3 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x4096) hz2, View.ld_unit_zero (S := S4096x512) hz2, View.ld_unit_zero (S := S1x512) hz2, View.ld_unit_zero (S := S512x64) hz2, View.ld_unit_zero (S := S1x64) hz2, View.ld_unit_zero (S := S1x1x64) hz3]

/-- The running row after the first chunk of the second perceptron: the row is zeroed, then the chunk's contribution is added to the zero row. -/
theorem scratch_D (c : Dev nD) (i : grid0.Coords) (arg2 : Memref sig .tc .vmem S1x4096 .f32) (harg2 : arg2.IsWhole) (arg3 : Memref sig .tc .vmem S4096x512 .f32) (harg3 : arg3.IsWhole) (arg4 : Memref sig .tc .vmem S1x512 .f32) (harg4 : arg4.IsWhole) (arg5 : Memref sig .tc .vmem S512x64 .f32) (harg5 : arg5.IsWhole) (arg6 : Memref sig .tc .vmem S1x64 .f32) (harg6 : arg6.IsWhole) (arg7 : Memref sig .tc .vmem S4096x512 .f32) (harg7 : arg7.IsWhole) (arg8 : Memref sig .tc .vmem S1x512 .f32) (harg8 : arg8.IsWhole) (arg9 : Memref sig .tc .vmem S512x64 .f32) (harg9 : arg9.IsWhole) (arg10 : Memref sig .tc .vmem S1x64 .f32) (harg10 : arg10.IsWhole) (arg11 : Memref sig .tc .vmem S1x1x64 .f32) (harg11 : arg11.IsWhole) (arg12 : Memref sig .tc .vmem S1x64 .f32) (harg12 : arg12.IsWhole) (hc0 : cond0_0 i) (hc1 : ¬cond0_1 i) (hc2 : cond0_2 i) (hc3 : ¬cond0_3 i)
    (x0 : Vec F S1x4096 .f32) (x1 : Vec F S4096x512 .f32) (x2 : Vec F S1x512 .f32) (x3 : Vec F S512x64 .f32) (x4 : Vec F S1x64 .f32) (x5 : Vec F S4096x512 .f32) (x6 : Vec F S1x512 .f32) (x7 : Vec F S512x64 .f32) (x8 : Vec F S1x64 .f32) :
    sout0_D_0 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 = k0_pay3 x0 x5 x6 x7 (k0_pay1 (F := F)) := by
  unfold sout0_D_0
  rw [View.read_writes_eq_canon _ _ _ (scover0_D_0 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8)]
  unfold kernelRun0_D
  dsimp only
  sl_unfold_words
  rw [View.canon_cons_unit_zero (S := S1x64) hz2, View.readCov_unit_zero (S := S1x64) _ hz2]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x4096) hz2, View.ld_unit_zero (S := S4096x512) hz2, View.ld_unit_zero (S := S1x512) hz2, View.ld_unit_zero (S := S512x64) hz2, View.ld_unit_zero (S := S1x64) hz2, View.ld_unit_zero (S := S1x1x64) hz3]

/-- The running row after a middle chunk of the second perceptron: the chunk's contribution is added to the row the point before left. -/
theorem scratch_E (c : Dev nD) (i : grid0.Coords) (arg2 : Memref sig .tc .vmem S1x4096 .f32) (harg2 : arg2.IsWhole) (arg3 : Memref sig .tc .vmem S4096x512 .f32) (harg3 : arg3.IsWhole) (arg4 : Memref sig .tc .vmem S1x512 .f32) (harg4 : arg4.IsWhole) (arg5 : Memref sig .tc .vmem S512x64 .f32) (harg5 : arg5.IsWhole) (arg6 : Memref sig .tc .vmem S1x64 .f32) (harg6 : arg6.IsWhole) (arg7 : Memref sig .tc .vmem S4096x512 .f32) (harg7 : arg7.IsWhole) (arg8 : Memref sig .tc .vmem S1x512 .f32) (harg8 : arg8.IsWhole) (arg9 : Memref sig .tc .vmem S512x64 .f32) (harg9 : arg9.IsWhole) (arg10 : Memref sig .tc .vmem S1x64 .f32) (harg10 : arg10.IsWhole) (arg11 : Memref sig .tc .vmem S1x1x64 .f32) (harg11 : arg11.IsWhole) (arg12 : Memref sig .tc .vmem S1x64 .f32) (harg12 : arg12.IsWhole) (hc0 : ¬cond0_0 i) (hc1 : ¬cond0_1 i) (hc2 : cond0_2 i) (hc3 : ¬cond0_3 i)
    (x0 : Vec F S1x4096 .f32) (x1 : Vec F S4096x512 .f32) (x2 : Vec F S1x512 .f32) (x3 : Vec F S512x64 .f32) (x4 : Vec F S1x64 .f32) (x5 : Vec F S4096x512 .f32) (x6 : Vec F S1x512 .f32) (x7 : Vec F S512x64 .f32) (x8 : Vec F S1x64 .f32) (xs0 : Vec F S1x64 .f32) :
    sout0_E_0 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 xs0 = k0_pay3 x0 x5 x6 x7 xs0 := by
  unfold sout0_E_0
  rw [View.read_writes_eq_canon _ _ _ (scover0_E_0 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 xs0)]
  unfold kernelRun0_E
  dsimp only
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x4096) hz2, View.ld_unit_zero (S := S4096x512) hz2, View.ld_unit_zero (S := S1x512) hz2, View.ld_unit_zero (S := S512x64) hz2, View.ld_unit_zero (S := S1x64) hz2, View.ld_unit_zero (S := S1x1x64) hz3]

/-- The running row after the last chunk of the second perceptron: the chunk's contribution is added to the row the point before left. -/
theorem scratch_F (c : Dev nD) (i : grid0.Coords) (arg2 : Memref sig .tc .vmem S1x4096 .f32) (harg2 : arg2.IsWhole) (arg3 : Memref sig .tc .vmem S4096x512 .f32) (harg3 : arg3.IsWhole) (arg4 : Memref sig .tc .vmem S1x512 .f32) (harg4 : arg4.IsWhole) (arg5 : Memref sig .tc .vmem S512x64 .f32) (harg5 : arg5.IsWhole) (arg6 : Memref sig .tc .vmem S1x64 .f32) (harg6 : arg6.IsWhole) (arg7 : Memref sig .tc .vmem S4096x512 .f32) (harg7 : arg7.IsWhole) (arg8 : Memref sig .tc .vmem S1x512 .f32) (harg8 : arg8.IsWhole) (arg9 : Memref sig .tc .vmem S512x64 .f32) (harg9 : arg9.IsWhole) (arg10 : Memref sig .tc .vmem S1x64 .f32) (harg10 : arg10.IsWhole) (arg11 : Memref sig .tc .vmem S1x1x64 .f32) (harg11 : arg11.IsWhole) (arg12 : Memref sig .tc .vmem S1x64 .f32) (harg12 : arg12.IsWhole) (hc0 : ¬cond0_0 i) (hc1 : ¬cond0_1 i) (hc2 : cond0_2 i) (hc3 : cond0_3 i)
    (x0 : Vec F S1x4096 .f32) (x1 : Vec F S4096x512 .f32) (x2 : Vec F S1x512 .f32) (x3 : Vec F S512x64 .f32) (x4 : Vec F S1x64 .f32) (x5 : Vec F S4096x512 .f32) (x6 : Vec F S1x512 .f32) (x7 : Vec F S512x64 .f32) (x8 : Vec F S1x64 .f32) (xs0 : Vec F S1x64 .f32) :
    sout0_F_0 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 xs0 = k0_pay3 x0 x5 x6 x7 xs0 := by
  unfold sout0_F_0
  rw [View.read_writes_eq_canon _ _ _ (scover0_F_0 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 xs0)]
  unfold kernelRun0_F
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x4096) hz2, View.ld_unit_zero (S := S4096x512) hz2, View.ld_unit_zero (S := S1x512) hz2, View.ld_unit_zero (S := S512x64) hz2, View.ld_unit_zero (S := S1x64) hz2, View.ld_unit_zero (S := S1x1x64) hz3]

/-- The output block stored at the last chunk of the first perceptron: the finished row (this chunk's contribution included) plus the
    bias row the point's perceptron selects, rectified. -/
theorem block_C (c : Dev nD) (i : grid0.Coords) (arg2 : Memref sig .tc .vmem S1x4096 .f32) (harg2 : arg2.IsWhole) (arg3 : Memref sig .tc .vmem S4096x512 .f32) (harg3 : arg3.IsWhole) (arg4 : Memref sig .tc .vmem S1x512 .f32) (harg4 : arg4.IsWhole) (arg5 : Memref sig .tc .vmem S512x64 .f32) (harg5 : arg5.IsWhole) (arg6 : Memref sig .tc .vmem S1x64 .f32) (harg6 : arg6.IsWhole) (arg7 : Memref sig .tc .vmem S4096x512 .f32) (harg7 : arg7.IsWhole) (arg8 : Memref sig .tc .vmem S1x512 .f32) (harg8 : arg8.IsWhole) (arg9 : Memref sig .tc .vmem S512x64 .f32) (harg9 : arg9.IsWhole) (arg10 : Memref sig .tc .vmem S1x64 .f32) (harg10 : arg10.IsWhole) (arg11 : Memref sig .tc .vmem S1x1x64 .f32) (harg11 : arg11.IsWhole) (arg12 : Memref sig .tc .vmem S1x64 .f32) (harg12 : arg12.IsWhole) (hc0 : ¬cond0_0 i) (hc1 : cond0_1 i) (hc2 : ¬cond0_2 i) (hc3 : cond0_3 i)
    (x0 : Vec F S1x4096 .f32) (x1 : Vec F S4096x512 .f32) (x2 : Vec F S1x512 .f32) (x3 : Vec F S512x64 .f32) (x4 : Vec F S1x64 .f32) (x5 : Vec F S4096x512 .f32) (x6 : Vec F S1x512 .f32) (x7 : Vec F S512x64 .f32) (x8 : Vec F S1x64 .f32) (xs0 : Vec F S1x64 .f32) :
    out0_C_9 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 xs0 = k0_pay4 i x4 x8 (k0_pay2 x0 x1 x2 x3 xs0) := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 xs0)]
  unfold kernelRun0_C
  dsimp only
  sl_unfold_words
  rw [View.canon_unit_zero hz3, View.readCov_unit_zero (S := S1x64) _ hz2]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x4096) hz2, View.ld_unit_zero (S := S4096x512) hz2, View.ld_unit_zero (S := S1x512) hz2, View.ld_unit_zero (S := S512x64) hz2, View.ld_unit_zero (S := S1x64) hz2, View.ld_unit_zero (S := S1x1x64) hz3]

/-- The output block stored at the last chunk of the second perceptron: the finished row (this chunk's contribution included) plus the
    bias row the point's perceptron selects, rectified. -/
theorem block_F (c : Dev nD) (i : grid0.Coords) (arg2 : Memref sig .tc .vmem S1x4096 .f32) (harg2 : arg2.IsWhole) (arg3 : Memref sig .tc .vmem S4096x512 .f32) (harg3 : arg3.IsWhole) (arg4 : Memref sig .tc .vmem S1x512 .f32) (harg4 : arg4.IsWhole) (arg5 : Memref sig .tc .vmem S512x64 .f32) (harg5 : arg5.IsWhole) (arg6 : Memref sig .tc .vmem S1x64 .f32) (harg6 : arg6.IsWhole) (arg7 : Memref sig .tc .vmem S4096x512 .f32) (harg7 : arg7.IsWhole) (arg8 : Memref sig .tc .vmem S1x512 .f32) (harg8 : arg8.IsWhole) (arg9 : Memref sig .tc .vmem S512x64 .f32) (harg9 : arg9.IsWhole) (arg10 : Memref sig .tc .vmem S1x64 .f32) (harg10 : arg10.IsWhole) (arg11 : Memref sig .tc .vmem S1x1x64 .f32) (harg11 : arg11.IsWhole) (arg12 : Memref sig .tc .vmem S1x64 .f32) (harg12 : arg12.IsWhole) (hc0 : ¬cond0_0 i) (hc1 : ¬cond0_1 i) (hc2 : cond0_2 i) (hc3 : cond0_3 i)
    (x0 : Vec F S1x4096 .f32) (x1 : Vec F S4096x512 .f32) (x2 : Vec F S1x512 .f32) (x3 : Vec F S512x64 .f32) (x4 : Vec F S1x64 .f32) (x5 : Vec F S4096x512 .f32) (x6 : Vec F S1x512 .f32) (x7 : Vec F S512x64 .f32) (x8 : Vec F S1x64 .f32) (xs0 : Vec F S1x64 .f32) :
    out0_F_9 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 xs0 = k0_pay4 i x4 x8 (k0_pay3 x0 x5 x6 x7 xs0) := by
  unfold out0_F_9
  rw [View.read_writes_eq_canon _ _ _ (cover0_F_9 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 xs0)]
  unfold kernelRun0_F
  dsimp only
  sl_unfold_words
  rw [View.canon_unit_zero hz3, View.readCov_unit_zero (S := S1x64) _ hz2]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x4096) hz2, View.ld_unit_zero (S := S4096x512) hz2, View.ld_unit_zero (S := S1x512) hz2, View.ld_unit_zero (S := S512x64) hz2, View.ld_unit_zero (S := S1x64) hz2, View.ld_unit_zero (S := S1x1x64) hz3]

end Cert.KernelIdeal.Pieces

end
-- ==== Proof.Blocks.lean ====
/-
  The windows' blocks, read at coordinates.

  The grid's 32 points are `t = 16 p + c`: perceptron `p` (0 or 1), chunk `c` of its hidden axis. At a point of perceptron 0
  the windows over its first matrix, first bias row and second matrix sit at chunk `c`: columns `512 c …` of the first matrix and
  of the bias row, rows `512 c …` of the second matrix. At a point of perceptron 1 the second perceptron's windows do. The input
  row and the two output bias rows are whole at every point. The bias rows the region finds are the bias vectors with a unit
  row axis put in front by a reshape before the region.
-/
import proofs.«103249_j46866683134472_2_alg».proof.Proof.Gen.KernelIdeal.Frame
import proofs.«103249_j46866683134472_2_alg».proof.Proof.ChunkedLayer
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.ChunkedLayer

variable (m : (ℓ : Loc nD τ sig) → Buf (Elt Ideal) ℓ)

/-! ## Where each window sits -/

/-- At a point of the first perceptron its three chunked windows sit at the point's chunk. -/
theorem at_first : ∀ t : Fin cfg0.N, t.val < 16 →
    win0_1.index t 0 = 0 ∧ win0_1.index t 1 = t.val % 16 ∧ win0_2.index t 0 = 0 ∧ win0_2.index t 1 = t.val % 16
      ∧ win0_3.index t 0 = t.val % 16 ∧ win0_3.index t 1 = 0 :=
  (by decide +kernel : ∀ t : Fin grid0.N, t.val < 16 →
    win0_1.index t 0 = 0 ∧ win0_1.index t 1 = t.val % 16 ∧ win0_2.index t 0 = 0 ∧ win0_2.index t 1 = t.val % 16
      ∧ win0_3.index t 0 = t.val % 16 ∧ win0_3.index t 1 = 0)

/-- At a point of the second perceptron its three chunked windows sit at the point's chunk. -/
theorem at_second : ∀ t : Fin cfg0.N, 16 ≤ t.val →
    win0_5.index t 0 = 0 ∧ win0_5.index t 1 = t.val % 16 ∧ win0_6.index t 0 = 0 ∧ win0_6.index t 1 = t.val % 16
      ∧ win0_7.index t 0 = t.val % 16 ∧ win0_7.index t 1 = 0 :=
  (by decide +kernel : ∀ t : Fin grid0.N, 16 ≤ t.val →
    win0_5.index t 0 = 0 ∧ win0_5.index t 1 = t.val % 16 ∧ win0_6.index t 0 = 0 ∧ win0_6.index t 1 = t.val % 16
      ∧ win0_7.index t 0 = t.val % 16 ∧ win0_7.index t 1 = 0)

/-- The input row and the two output bias rows are whole at every point. -/
theorem at_whole : ∀ t : Fin cfg0.N,
    win0_0.index t 0 = 0 ∧ win0_0.index t 1 = 0 ∧ win0_4.index t 0 = 0 ∧ win0_4.index t 1 = 0
      ∧ win0_8.index t 0 = 0 ∧ win0_8.index t 1 = 0 :=
  (by decide +kernel : ∀ t : Fin grid0.N,
    win0_0.index t 0 = 0 ∧ win0_0.index t 1 = 0 ∧ win0_4.index t 0 = 0 ∧ win0_4.index t 1 = 0
      ∧ win0_8.index t 0 = 0 ∧ win0_8.index t 1 = 0)

/-! ## The bias rows the region finds -/

theorem row_b1a (c : Dev nD) : (V m c main_v0 : S1x8192.Idx → EReal)
    = shapeCast S1x8192 (m ((c.tc : Thread nD τ).loc main_arg2)) shapeCasts_S8192_S1x8192 := by
  show StableHlo.after hostOps0 (fun b => m (c, b)) (Proc.devRef .tc main_v0) = _
  after_results
  rfl

theorem row_b1b (c : Dev nD) : (V m c main_v1 : S1x8192.Idx → EReal)
    = shapeCast S1x8192 (m ((c.tc : Thread nD τ).loc main_arg6)) shapeCasts_S8192_S1x8192 := by
  show StableHlo.after hostOps0 (fun b => m (c, b)) (Proc.devRef .tc main_v1) = _
  after_results
  rfl

theorem row_b2a (c : Dev nD) : (V m c main_v2 : S1x64.Idx → EReal)
    = shapeCast S1x64 (m ((c.tc : Thread nD τ).loc main_arg4)) shapeCasts_S64_S1x64 := by
  show StableHlo.after hostOps0 (fun b => m (c, b)) (Proc.devRef .tc main_v2) = _
  after_results
  rfl

theorem row_b2b (c : Dev nD) : (V m c main_v3 : S1x64.Idx → EReal)
    = shapeCast S1x64 (m ((c.tc : Thread nD τ).loc main_arg8)) shapeCasts_S64_S1x64 := by
  show StableHlo.after hostOps0 (fun b => m (c, b)) (Proc.devRef .tc main_v3) = _
  after_results
  rfl

/-! ## The blocks at coordinates -/

/-- The first matrix's block at a point of the first perceptron: column `r` of the block is column `r` of the point's chunk. -/
theorem firstMatrix_apply (c : Dev nD) (t : Fin cfg0.N) (ht : t.val < 16) (i : Fin 4096) (r : Fin 512) :
    (iblk m c 1 t : S4096x512.Idx → EReal) (ix2 i r)
      = m ((c.tc : Thread nD τ).loc main_arg1) (ix2 i (unitOf (t.val % 16) r)) := by
  obtain ⟨h0, h1, -⟩ := at_first t ht
  unfold iblk
  rw [View.read_apply]
  show V m c main_arg1 _ = _
  rw [V_main_arg1]
  refine congrArg _ (funext fun a => Fin.ext ?_)
  match a with
  | ⟨0, _⟩ => show win0_1.index t 0 * 4096 + 1 * i.val = i.val; rw [h0]; omega
  | ⟨1, _⟩ => show win0_1.index t 1 * 512 + 1 * r.val = (512 * (t.val % 16) + r.val) % 8192; rw [h1]; omega

/-- The input row's block is the input row, at every point. -/
theorem inputRow_apply (c : Dev nD) (t : Fin cfg0.N) (i : Fin 4096) :
    (iblk m c 0 t : S1x4096.Idx → EReal) (ix2 (0 : Fin 1) i) = m ((c.tc : Thread nD τ).loc main_arg0) (ix2 (0 : Fin 1) i) := by
  obtain ⟨h0, h1, -⟩ := at_whole t
  unfold iblk
  rw [View.read_apply]
  show V m c main_arg0 _ = _
  rw [V_main_arg0]
  refine congrArg _ (funext fun a => Fin.ext ?_)
  match a with
  | ⟨0, _⟩ => show win0_0.index t 0 * 1 + 1 * 0 = 0; rw [h0]
  | ⟨1, _⟩ => show win0_0.index t 1 * 4096 + 1 * i.val = i.val; rw [h1]; omega

/-- The first bias row's block at a point of the first perceptron: entry `r` is the bias of unit `r` of the point's chunk. -/
theorem firstBias_apply (c : Dev nD) (t : Fin cfg0.N) (ht : t.val < 16) (r : Fin 512) :
    (iblk m c 2 t : S1x512.Idx → EReal) (ix2 (0 : Fin 1) r)
      = m ((c.tc : Thread nD τ).loc main_arg2) (ix1 (unitOf (t.val % 16) r)) := by
  obtain ⟨-, -, h0, h1, -⟩ := at_first t ht
  unfold iblk
  rw [View.read_apply]
  show V m c main_v0 _ = _
  rw [row_b1a]
  refine Eq.trans (congrArg _ (funext fun a => Fin.ext ?_)) (shapeCast_a_1a_apply _ shapeCasts_S8192_S1x8192 (0 : Fin 1) (unitOf (t.val % 16) r))
  match a with
  | ⟨0, _⟩ => show win0_2.index t 0 * 1 + 1 * 0 = 0; rw [h0]
  | ⟨1, _⟩ => show win0_2.index t 1 * 512 + 1 * r.val = (512 * (t.val % 16) + r.val) % 8192; rw [h1]; omega

/-- The second matrix's block at a point of the first perceptron: row `r` of the block is row `r` of the point's chunk. -/
theorem secondMatrix_apply (c : Dev nD) (t : Fin cfg0.N) (ht : t.val < 16) (r : Fin 512) (j : Fin 64) :
    (iblk m c 3 t : S512x64.Idx → EReal) (ix2 r j)
      = m ((c.tc : Thread nD τ).loc main_arg3) (ix2 (unitOf (t.val % 16) r) j) := by
  obtain ⟨-, -, -, -, h0, h1⟩ := at_first t ht
  unfold iblk
  rw [View.read_apply]
  show V m c main_arg3 _ = _
  rw [V_main_arg3]
  refine congrArg _ (funext fun a => Fin.ext ?_)
  match a with
  | ⟨0, _⟩ => show win0_3.index t 0 * 512 + 1 * r.val = (512 * (t.val % 16) + r.val) % 8192; rw [h0]; omega
  | ⟨1, _⟩ => show win0_3.index t 1 * 64 + 1 * j.val = j.val; rw [h1]; omega

/-- The first perceptron's output bias row, at every point. -/
theorem outBias_apply (c : Dev nD) (t : Fin cfg0.N) (j : Fin 64) :
    (iblk m c 4 t : S1x64.Idx → EReal) (ix2 (0 : Fin 1) j) = m ((c.tc : Thread nD τ).loc main_arg4) (ix1 j) := by
  obtain ⟨-, -, h0, h1, -⟩ := at_whole t
  unfold iblk
  rw [View.read_apply]
  show V m c main_v2 _ = _
  rw [row_b2a]
  refine Eq.trans (congrArg _ (funext fun a => Fin.ext ?_)) (shapeCast_a_1a_apply _ shapeCasts_S64_S1x64 (0 : Fin 1) j)
  match a with
  | ⟨0, _⟩ => show win0_4.index t 0 * 1 + 1 * 0 = 0; rw [h0]
  | ⟨1, _⟩ => show win0_4.index t 1 * 64 + 1 * j.val = j.val; rw [h1]; omega

/-- The first matrix's block of the second perceptron, at one of its points. -/
theorem firstMatrix_apply' (c : Dev nD) (t : Fin cfg0.N) (ht : 16 ≤ t.val) (i : Fin 4096) (r : Fin 512) :
    (iblk m c 5 t : S4096x512.Idx → EReal) (ix2 i r)
      = m ((c.tc : Thread nD τ).loc main_arg5) (ix2 i (unitOf (t.val % 16) r)) := by
  obtain ⟨h0, h1, -⟩ := at_second t ht
  unfold iblk
  rw [View.read_apply]
  show V m c main_arg5 _ = _
  rw [V_main_arg5]
  refine congrArg _ (funext fun a => Fin.ext ?_)
  match a with
  | ⟨0, _⟩ => show win0_5.index t 0 * 4096 + 1 * i.val = i.val; rw [h0]; omega
  | ⟨1, _⟩ => show win0_5.index t 1 * 512 + 1 * r.val = (512 * (t.val % 16) + r.val) % 8192; rw [h1]; omega

/-- The first bias row's block of the second perceptron, at one of its points. -/
theorem firstBias_apply' (c : Dev nD) (t : Fin cfg0.N) (ht : 16 ≤ t.val) (r : Fin 512) :
    (iblk m c 6 t : S1x512.Idx → EReal) (ix2 (0 : Fin 1) r)
      = m ((c.tc : Thread nD τ).loc main_arg6) (ix1 (unitOf (t.val % 16) r)) := by
  obtain ⟨-, -, h0, h1, -⟩ := at_second t ht
  unfold iblk
  rw [View.read_apply]
  show V m c main_v1 _ = _
  rw [row_b1b]
  refine Eq.trans (congrArg _ (funext fun a => Fin.ext ?_)) (shapeCast_a_1a_apply _ shapeCasts_S8192_S1x8192 (0 : Fin 1) (unitOf (t.val % 16) r))
  match a with
  | ⟨0, _⟩ => show win0_6.index t 0 * 1 + 1 * 0 = 0; rw [h0]
  | ⟨1, _⟩ => show win0_6.index t 1 * 512 + 1 * r.val = (512 * (t.val % 16) + r.val) % 8192; rw [h1]; omega

/-- The second matrix's block of the second perceptron, at one of its points. -/
theorem secondMatrix_apply' (c : Dev nD) (t : Fin cfg0.N) (ht : 16 ≤ t.val) (r : Fin 512) (j : Fin 64) :
    (iblk m c 7 t : S512x64.Idx → EReal) (ix2 r j)
      = m ((c.tc : Thread nD τ).loc main_arg7) (ix2 (unitOf (t.val % 16) r) j) := by
  obtain ⟨-, -, -, -, h0, h1⟩ := at_second t ht
  unfold iblk
  rw [View.read_apply]
  show V m c main_arg7 _ = _
  rw [V_main_arg7]
  refine congrArg _ (funext fun a => Fin.ext ?_)
  match a with
  | ⟨0, _⟩ => show win0_7.index t 0 * 512 + 1 * r.val = (512 * (t.val % 16) + r.val) % 8192; rw [h0]; omega
  | ⟨1, _⟩ => show win0_7.index t 1 * 64 + 1 * j.val = j.val; rw [h1]; omega

/-- The second perceptron's output bias row, at every point. -/
theorem outBias_apply' (c : Dev nD) (t : Fin cfg0.N) (j : Fin 64) :
    (iblk m c 8 t : S1x64.Idx → EReal) (ix2 (0 : Fin 1) j) = m ((c.tc : Thread nD τ).loc main_arg8) (ix1 j) := by
  obtain ⟨-, -, -, -, h0, h1⟩ := at_whole t
  unfold iblk
  rw [View.read_apply]
  show V m c main_v3 _ = _
  rw [row_b2b]
  refine Eq.trans (congrArg _ (funext fun a => Fin.ext ?_)) (shapeCast_a_1a_apply _ shapeCasts_S64_S1x64 (0 : Fin 1) j)
  match a with
  | ⟨0, _⟩ => show win0_8.index t 0 * 1 + 1 * 0 = 0; rw [h0]
  | ⟨1, _⟩ => show win0_8.index t 1 * 64 + 1 * j.val = j.val; rw [h1]; omega

end Cert.KernelIdeal.Blocks

end
-- ==== Proof.Accumulated.lean ====
/-
  The running row, point by point.

  After the body at point `t = 16 p + k` the scratch row holds, at entry `j`, the sum of the contributions of chunks `0 … k` of
  perceptron `p`: the first chunk of a perceptron zeroes the row and adds its contribution, every later chunk adds its own to
  what the point before left. This is an induction on the point, one step per control case of the body. At the last chunk the
  sixteen contributions are the sum over the whole hidden axis, and the block the body stores for the output is the
  perceptron's output row.
-/
import proofs.«103249_j46866683134472_2_alg».proof.Proof.Gen.KernelIdeal.Frame
import proofs.«103249_j46866683134472_2_alg».proof.Proof.StepPayload
import proofs.«103249_j46866683134472_2_alg».proof.Proof.Pieces
import proofs.«103249_j46866683134472_2_alg».proof.Proof.Blocks
import proofs.«103249_j46866683134472_2_alg».proof.Proof.ChunkedLayer

set_option maxRecDepth 16384

noncomputable section

open scoped BigOperators

namespace Cert.KernelIdeal.Accumulated

open Cert.KernelIdeal Cert.KernelIdeal.Gen Idealize.ShloMosaic Idealize.ShloMosaic.TcCoe Idealize.SL.Sem
open Idealize.ShloMosaic.ValueIdx Cert.ChunkedLayer Cert.KernelIdeal.Payload Cert.KernelIdeal.Pieces Cert.KernelIdeal.Blocks

/-- A chunk's blocks give the chunk's contribution: when the blocks read the arrays at the units of chunk `k`. -/
theorem blockTerm_eq_chunkTerm (x : FVec Ideal S1x4096 .f32) (w₁ : FVec Ideal S4096x512 .f32) (b₁ : FVec Ideal S1x512 .f32)
    (w₂ : FVec Ideal S512x64 .f32) (X : FVec Ideal S1x4096 .f32) (A : FVec Ideal S4096x8192 .f32) (b : FVec Ideal S8192 .f32)
    (C : FVec Ideal S8192x64 .f32) (k : ℕ) (j : Fin 64)
    (hx : ∀ i, x (ix2 (0 : Fin 1) i) = X (ix2 (0 : Fin 1) i)) (hw₁ : ∀ i r, w₁ (ix2 i r) = A (ix2 i (unitOf k r)))
    (hb₁ : ∀ r, b₁ (ix2 (0 : Fin 1) r) = b (ix1 (unitOf k r))) (hw₂ : ∀ r, w₂ (ix2 r j) = C (ix2 (unitOf k r) j)) :
    blockTerm x w₁ b₁ w₂ j = chunkTerm X A b C k j := by
  unfold blockTerm Cert.ChunkedLayer.chunkTerm Cert.ChunkedLayer.term Cert.ChunkedLayer.hidden
  refine Finset.sum_congr rfl fun r _ => ?_
  rw [hb₁ r, hw₂ r]
  refine congrArg (· * C (ix2 (unitOf k r) j)) (congrArg (max · 0) (congrArg (· + b (ix1 (unitOf k r))) (Finset.sum_congr rfl fun i _ => ?_)))
  rw [hx i, hw₁ i r]

variable (m : (ℓ : Loc nD τ sig) → Buf (Elt Ideal) ℓ)

/-- The nine argument arrays on core `c`. -/
abbrev a0 (c : Dev nD) : FVec Ideal S1x4096 .f32 := m ((c.tc : Thread nD τ).loc main_arg0)
abbrev a1 (c : Dev nD) : FVec Ideal S4096x8192 .f32 := m ((c.tc : Thread nD τ).loc main_arg1)
abbrev a2 (c : Dev nD) : FVec Ideal S8192 .f32 := m ((c.tc : Thread nD τ).loc main_arg2)
abbrev a3 (c : Dev nD) : FVec Ideal S8192x64 .f32 := m ((c.tc : Thread nD τ).loc main_arg3)
abbrev a4 (c : Dev nD) : FVec Ideal S64 .f32 := m ((c.tc : Thread nD τ).loc main_arg4)
abbrev a5 (c : Dev nD) : FVec Ideal S4096x8192 .f32 := m ((c.tc : Thread nD τ).loc main_arg5)
abbrev a6 (c : Dev nD) : FVec Ideal S8192 .f32 := m ((c.tc : Thread nD τ).loc main_arg6)
abbrev a7 (c : Dev nD) : FVec Ideal S8192x64 .f32 := m ((c.tc : Thread nD τ).loc main_arg7)
abbrev a8 (c : Dev nD) : FVec Ideal S64 .f32 := m ((c.tc : Thread nD τ).loc main_arg8)

/-- One accumulating step at a point of the first perceptron adds the point's chunk. -/
theorem step_first (c : Dev nD) (t : Fin cfg0.N) (ht : t.val < 16) (acc : FVec Ideal S1x64 .f32) (j : Fin 64) :
    k0_pay2 (F := Ideal) (iblk m c 0 t) (iblk m c 1 t) (iblk m c 2 t) (iblk m c 3 t) acc (ix2 (0 : Fin 1) j)
      = acc (ix2 (0 : Fin 1) j) + chunkTerm (a0 m c) (a1 m c) (a2 m c) (a3 m c) (t.val % 16) j :=
  (accumulate_apply (iblk m c 0 t) (iblk m c 1 t) (iblk m c 2 t) (iblk m c 3 t) acc j).trans
    (congrArg (acc (ix2 (0 : Fin 1) j) + ·)
      (blockTerm_eq_chunkTerm (iblk m c 0 t) (iblk m c 1 t) (iblk m c 2 t) (iblk m c 3 t) (a0 m c) (a1 m c) (a2 m c) (a3 m c) (t.val % 16) j
        (inputRow_apply m c t) (firstMatrix_apply m c t ht) (firstBias_apply m c t ht) (fun r => secondMatrix_apply m c t ht r j)))

/-- One accumulating step at a point of the second perceptron adds the point's chunk. -/
theorem step_second (c : Dev nD) (t : Fin cfg0.N) (ht : 16 ≤ t.val) (acc : FVec Ideal S1x64 .f32) (j : Fin 64) :
    k0_pay3 (F := Ideal) (iblk m c 0 t) (iblk m c 5 t) (iblk m c 6 t) (iblk m c 7 t) acc (ix2 (0 : Fin 1) j)
      = acc (ix2 (0 : Fin 1) j) + chunkTerm (a0 m c) (a5 m c) (a6 m c) (a7 m c) (t.val % 16) j :=
  (accumulate_apply' (iblk m c 0 t) (iblk m c 5 t) (iblk m c 6 t) (iblk m c 7 t) acc j).trans
    (congrArg (acc (ix2 (0 : Fin 1) j) + ·)
      (blockTerm_eq_chunkTerm (iblk m c 0 t) (iblk m c 5 t) (iblk m c 6 t) (iblk m c 7 t) (a0 m c) (a5 m c) (a6 m c) (a7 m c) (t.val % 16) j
        (inputRow_apply m c t) (firstMatrix_apply' m c t ht) (firstBias_apply' m c t ht) (fun r => secondMatrix_apply' m c t ht r j)))

/-- The running row after point `n`, at entry `j`: the contributions of the chunks up to the point's, of the point's perceptron. -/
def rowAt (c : Dev nD) (n : ℕ) (j : Fin 64) : EReal :=
  if n < 16 then ∑ k ∈ Finset.range (n % 16 + 1), chunkTerm (a0 m c) (a1 m c) (a2 m c) (a3 m c) k j
  else ∑ k ∈ Finset.range (n % 16 + 1), chunkTerm (a0 m c) (a5 m c) (a6 m c) (a7 m c) k j

theorem rowAt_start_first (c : Dev nD) (n : ℕ) (h0 : n % 16 = 0) (h1 : n < 16) (j : Fin 64) :
    (0 : EReal) + chunkTerm (a0 m c) (a1 m c) (a2 m c) (a3 m c) (n % 16) j = rowAt m c n j := by
  unfold rowAt
  rw [if_pos h1, h0, zero_add, Finset.sum_range_one]

theorem rowAt_start_second (c : Dev nD) (n : ℕ) (h0 : n % 16 = 0) (h1 : ¬n < 16) (j : Fin 64) :
    (0 : EReal) + chunkTerm (a0 m c) (a5 m c) (a6 m c) (a7 m c) (n % 16) j = rowAt m c n j := by
  unfold rowAt
  rw [if_neg h1, h0, zero_add, Finset.sum_range_one]

theorem rowAt_next_first (c : Dev nD) (n : ℕ) (h0 : ¬n % 16 = 0) (h1 : n < 16) (j : Fin 64) :
    rowAt m c (n - 1) j + chunkTerm (a0 m c) (a1 m c) (a2 m c) (a3 m c) (n % 16) j = rowAt m c n j := by
  unfold rowAt
  rw [if_pos h1, if_pos (by omega : n - 1 < 16), show (n - 1) % 16 + 1 = n % 16 by omega, Finset.sum_range_succ]

theorem rowAt_next_second (c : Dev nD) (n : ℕ) (h0 : ¬n % 16 = 0) (h1 : ¬n < 16) (j : Fin 64) :
    rowAt m c (n - 1) j + chunkTerm (a0 m c) (a5 m c) (a6 m c) (a7 m c) (n % 16) j = rowAt m c n j := by
  unfold rowAt
  rw [if_neg h1, if_neg (by omega : ¬n - 1 < 16), show (n - 1) % 16 + 1 = n % 16 by omega, Finset.sum_range_succ]

/-- THE INVARIANT: what the scratch holds after point `n` is the running row. By induction on the point. -/
theorem scratch_eq (c : Dev nD) (n : ℕ) : ∀ (h : n < cfg0.N) (j : Fin 64),
    (outsAt0 m c n h).2 (ix2 (0 : Fin 1) j) = rowAt m c n j := by
  induction n using Nat.strong_induction_on with
  | _ n ih =>
    intro h j
    have hN : cfg0.N = 32 := N_0
    let t : Fin cfg0.N := ⟨n, h⟩
    by_cases h0 : t.val % 16 = 0
    · by_cases h1 : t.val < 16
      · have h2 : ¬16 ≤ t.val := by omega
        have h3 : ¬t.val % 16 = 15 := by omega
        refine (congrFun (congrArg Prod.snd (outsAt0_A m c t h0 h1 h2 h3)) (ix2 (0 : Fin 1) j)).trans ?_
        refine (congrFun (scratch_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t)) (ix2 (0 : Fin 1) j)).trans ?_
        refine (step_first m c t h1 _ j).trans ?_
        rw [zeroRow_apply]
        exact rowAt_start_first m c n h0 h1 j
      · have h2 : 16 ≤ t.val := by omega
        have h3 : ¬t.val % 16 = 15 := by omega
        refine (congrFun (congrArg Prod.snd (outsAt0_D m c t h0 h1 h2 h3)) (ix2 (0 : Fin 1) j)).trans ?_
        refine (congrFun (scratch_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t)) (ix2 (0 : Fin 1) j)).trans ?_
        refine (step_second m c t h2 _ j).trans ?_
        rw [zeroRow_apply]
        exact rowAt_start_second m c n h0 h1 j
    · have hp : n - 1 < n := by
        have : t.val = n := rfl
        omega
      have ihp := ih (n - 1) hp (Nat.lt_of_le_of_lt (Nat.sub_le _ _) t.isLt) j
      by_cases h1 : t.val < 16
      · have h2 : ¬16 ≤ t.val := by omega
        by_cases h3 : t.val % 16 = 15
        · refine (congrFun (congrArg Prod.snd (outsAt0_C m c t h0 h1 h2 h3)) (ix2 (0 : Fin 1) j)).trans ?_
          refine (congrFun (scratch_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2) (ix2 (0 : Fin 1) j)).trans ?_
          refine (step_first m c t h1 _ j).trans ?_
          refine (congrArg (· + chunkTerm (a0 m c) (a1 m c) (a2 m c) (a3 m c) (n % 16) j) ihp).trans ?_
          exact rowAt_next_first m c n h0 h1 j
        · refine (congrFun (congrArg Prod.snd (outsAt0_B m c t h0 h1 h2 h3)) (ix2 (0 : Fin 1) j)).trans ?_
          refine (congrFun (scratch_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2) (ix2 (0 : Fin 1) j)).trans ?_
          refine (step_first m c t h1 _ j).trans ?_
          refine (congrArg (· + chunkTerm (a0 m c) (a1 m c) (a2 m c) (a3 m c) (n % 16) j) ihp).trans ?_
          exact rowAt_next_first m c n h0 h1 j
      · have h2 : 16 ≤ t.val := by omega
        by_cases h3 : t.val % 16 = 15
        · refine (congrFun (congrArg Prod.snd (outsAt0_F m c t h0 h1 h2 h3)) (ix2 (0 : Fin 1) j)).trans ?_
          refine (congrFun (scratch_F c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2) (ix2 (0 : Fin 1) j)).trans ?_
          refine (step_second m c t h2 _ j).trans ?_
          refine (congrArg (· + chunkTerm (a0 m c) (a5 m c) (a6 m c) (a7 m c) (n % 16) j) ihp).trans ?_
          exact rowAt_next_second m c n h0 h1 j
        · refine (congrFun (congrArg Prod.snd (outsAt0_E m c t h0 h1 h2 h3)) (ix2 (0 : Fin 1) j)).trans ?_
          refine (congrFun (scratch_E c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2) (ix2 (0 : Fin 1) j)).trans ?_
          refine (step_second m c t h2 _ j).trans ?_
          refine (congrArg (· + chunkTerm (a0 m c) (a5 m c) (a6 m c) (a7 m c) (n % 16) j) ihp).trans ?_
          exact rowAt_next_second m c n h0 h1 j

end Cert.KernelIdeal.Accumulated

end
-- ==== Proof.OutputArray.lean ====
/-
  The array the region leaves: the two perceptrons' output rows, stacked.

  The output window's block at point `t = 16 p + k` is block `p` of the `[2, 1, 64]` array and is written back at the last chunk
  of each perceptron (`k = 15`) only. By then the running row holds all sixteen chunk contributions, that is the sum over the
  whole hidden axis, so the stored block is perceptron `p`'s output row: the sum plus the output bias, rectified. The two
  written-back blocks cover the array, which therefore ends holding row `p` of the array at perceptron `p`'s output.
-/
import proofs.«103249_j46866683134472_2_alg».proof.Proof.Gen.KernelIdeal.Frame
import proofs.«103249_j46866683134472_2_alg».proof.Proof.Accumulated
import Idealize.ShloMosaic.Lib.Pipeline.Value

set_option maxRecDepth 16384

noncomputable section

open scoped BigOperators

namespace Cert.KernelIdeal.OutputArray

open Cert.KernelIdeal Cert.KernelIdeal.Gen Idealize.ShloMosaic Idealize.ShloMosaic.TcCoe Idealize.SL.Sem
open Idealize.ShloMosaic.ValueIdx Cert.ChunkedLayer Cert.KernelIdeal.Payload Cert.KernelIdeal.Pieces Cert.KernelIdeal.Blocks
open Cert.KernelIdeal.Accumulated
open Idealize.ShloMosaic.Pipeline (Dat)

variable (m : (ℓ : Loc nD τ sig) → Buf (Elt Ideal) ℓ)

/-- A point's first coordinate is its perceptron. -/
theorem perceptron_of : ∀ t : Fin cfg0.N, ((grid0.coords t) 0).val = t.val / 16 :=
  (by decide +kernel : ∀ t : Fin grid0.N, ((grid0.coords t) 0).val = t.val / 16)

/-- The output window sits at its point's perceptron. -/
theorem at_out : ∀ t : Fin cfg0.N, win0_9.index t 0 = t.val / 16 ∧ win0_9.index t 1 = 0 ∧ win0_9.index t 2 = 0 :=
  (by decide +kernel : ∀ t : Fin grid0.N, win0_9.index t 0 = t.val / 16 ∧ win0_9.index t 1 = 0 ∧ win0_9.index t 2 = 0)

/-- After the last chunk the running row is the sum over the whole hidden axis (first perceptron). -/
theorem rowAt_last_first (c : Dev nD) (n : ℕ) (h1 : n < 16) (h3 : n % 16 = 15) (j : Fin 64) :
    rowAt m c n j = ∑ k : Fin 8192, term (a0 m c) (a1 m c) (a2 m c) (a3 m c) j k := by
  unfold rowAt
  rw [if_pos h1, h3]
  exact sum_chunkTerm _ _ _ _ j

/-- After the last chunk the running row is the sum over the whole hidden axis (second perceptron). -/
theorem rowAt_last_second (c : Dev nD) (n : ℕ) (h1 : ¬n < 16) (h3 : n % 16 = 15) (j : Fin 64) :
    rowAt m c n j = ∑ k : Fin 8192, term (a0 m c) (a5 m c) (a6 m c) (a7 m c) j k := by
  unfold rowAt
  rw [if_neg h1, h3]
  exact sum_chunkTerm _ _ _ _ j

/-- The block stored at the last chunk of the first perceptron is its output row. -/
theorem stored_first (c : Dev nD) (t : Fin cfg0.N) (h1 : t.val < 16) (h3 : t.val % 16 = 15) (u v : Fin 1) (j : Fin 64) :
    (outsAt0 m c t.val t.isLt).1 (ix3 u v j) = output (a0 m c) (a1 m c) (a2 m c) (a3 m c) (a4 m c) j := by
  have hN : cfg0.N = 32 := N_0
  have h0 : ¬t.val % 16 = 0 := by omega
  have h2 : ¬16 ≤ t.val := by omega
  obtain rfl : v = 0 := Subsingleton.elim _ _
  have hp : ((grid0.coords t) 0).val = 0 := by rw [perceptron_of t]; omega
  refine (congrFun (congrArg Prod.fst (outsAt0_C m c t h0 h1 h2 h3)) (ix3 u 0 j)).trans ?_
  refine (congrFun (block_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2) (ix3 u 0 j)).trans ?_
  refine (finish_apply (grid0.coords t) (iblk m c 4 t) (iblk m c 8 t) _ u 0 j).trans ?_
  rw [if_pos hp]
  refine congrArg₂ max (congrArg₂ (· + ·) ?_ (outBias_apply m c t j)) rfl
  refine (step_first m c t h1 _ j).trans ?_
  refine (congrArg (· + chunkTerm (a0 m c) (a1 m c) (a2 m c) (a3 m c) (t.val % 16) j)
    (scratch_eq m c (t.val - 1) (Nat.lt_of_le_of_lt (Nat.sub_le _ _) t.isLt) j)).trans ?_
  exact (rowAt_next_first m c t.val h0 h1 j).trans (rowAt_last_first m c t.val h1 h3 j)

/-- The block stored at the last chunk of the second perceptron is its output row. -/
theorem stored_second (c : Dev nD) (t : Fin cfg0.N) (h1 : ¬t.val < 16) (h3 : t.val % 16 = 15) (u v : Fin 1) (j : Fin 64) :
    (outsAt0 m c t.val t.isLt).1 (ix3 u v j) = output (a0 m c) (a5 m c) (a6 m c) (a7 m c) (a8 m c) j := by
  have hN : cfg0.N = 32 := N_0
  have h0 : ¬t.val % 16 = 0 := by omega
  have h2 : 16 ≤ t.val := by omega
  obtain rfl : v = 0 := Subsingleton.elim _ _
  have hlt : t.val < 32 := hN ▸ t.isLt
  have hp : ¬((grid0.coords t) 0).val = 0 := by rw [perceptron_of t]; omega
  refine (congrFun (congrArg Prod.fst (outsAt0_F m c t h0 h1 h2 h3)) (ix3 u 0 j)).trans ?_
  refine (congrFun (block_F c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2) (ix3 u 0 j)).trans ?_
  refine (finish_apply (grid0.coords t) (iblk m c 4 t) (iblk m c 8 t) _ u 0 j).trans ?_
  rw [if_neg hp]
  refine congrArg₂ max (congrArg₂ (· + ·) ?_ (outBias_apply' m c t j)) rfl
  refine (step_second m c t h2 _ j).trans ?_
  refine (congrArg (· + chunkTerm (a0 m c) (a5 m c) (a6 m c) (a7 m c) (t.val % 16) j)
    (scratch_eq m c (t.val - 1) (Nat.lt_of_le_of_lt (Nat.sub_le _ _) t.isLt) j)).trans ?_
  exact (rowAt_next_second m c t.val h0 h1 j).trans (rowAt_last_second m c t.val h1 h3 j)

/-- The array the region leaves: row 0 the first perceptron's output, row 1 the second's. -/
def stacked (c : Dev nD) : S2x1x64.Idx → EReal := fun y =>
  if (y 0).val = 0 then output (a0 m c) (a1 m c) (a2 m c) (a3 m c) (a4 m c) (y 2)
  else output (a0 m c) (a5 m c) (a6 m c) (a7 m c) (a8 m c) (y 2)

/-- What a writing-back point writes back is its block of the stacked rows. -/
theorem flushed_eq (c : Dev nD) (t : Fin cfg0.N) (hf : (cfg0.win 9).flush t = true) :
    (dats m 0 c).flushed 9 t = ((cfg0.win 9).blk t).view.read (Elt Ideal) (stacked m c) := by
  have hN : cfg0.N = 32 := N_0
  have hlt : t.val < 32 := hN ▸ t.isLt
  have h3 : t.val % 16 = 15 := (flush0_9 t).mp hf
  obtain ⟨i0, i1, i2⟩ := at_out t
  show (cfg0.win 9).cut (grid0.coords t) ((dats m 0 c).after 9 t) = _
  rw [after0_9]
  funext y
  have y0 : (y 0).val < 1 := (y 0).isLt
  have hy : (y : S1x1x64.Idx) = ix3 (y 0) (y 1) (y 2) := eq_ix3 y
  show (outsAt0 m c t.val t.isLt).1 y = stacked m c (((cfg0.win 9).blk t).view.emb y)
  have e0 : ((((cfg0.win 9).blk t).view.emb y) 0).val = t.val / 16 := by
    show win0_9.index t 0 * 1 + 1 * (y 0).val = t.val / 16
    rw [i0]; omega
  have e2 : (((cfg0.win 9).blk t).view.emb y) 2 = y 2 := Fin.ext (by
    show win0_9.index t 2 * 64 + 1 * (y 2).val = (y 2).val
    rw [i2]; omega)
  unfold stacked
  rw [e0, e2]
  refine (congrArg (outsAt0 m c t.val t.isLt).1 hy).trans ?_
  by_cases h1 : t.val < 16
  · rw [if_pos (by omega : t.val / 16 = 0)]
    exact stored_first m c t h1 h3 (y 0) (y 1) (y 2)
  · rw [if_neg (by omega : ¬t.val / 16 = 0)]
    exact stored_second m c t h1 h3 (y 0) (y 1) (y 2)

/-- An index of the array is in point `t`'s block iff each coordinate is in the block's range on its axis. -/
theorem mem_blk (t : Fin cfg0.N) (i : S2x1x64.Idx) :
    i ∈ ((cfg0.win 9).blk t).view.set ↔ ∀ a : Fin 3, win0_9.index t a * S1x1x64.size a ≤ (i a).val ∧ (i a).val < win0_9.index t a * S1x1x64.size a + S1x1x64.size a := by
  show i ∈ ((View.whole main_v4).slice (win0_9.rect t)).set ↔ _
  rw [View.set_slice_whole, Rect.mem_set_unit]
  exact Iff.rfl

/-- The two written-back blocks cover the array. -/
theorem covered (c : Dev nD) (i : S2x1x64.Idx) :
    ∃ t : Fin cfg0.N, (cfg0.win 9).flush t = true ∧ i ∈ ((cfg0.win 9).blk t).view.set := by
  have hN : cfg0.N = 32 := N_0
  have b0 : (i 0).val < 2 := (i 0).isLt
  have b1 : (i 1).val < 1 := (i 1).isLt
  have b2 : (i 2).val < 64 := (i 2).isLt
  let t : Fin cfg0.N := ⟨16 * (i 0).val + 15, by omega⟩
  have tv : t.val = 16 * (i 0).val + 15 := rfl
  obtain ⟨i0, i1, i2⟩ := at_out t
  refine ⟨t, (flush0_9 t).mpr (by omega), ?_⟩
  rw [mem_blk]
  intro a
  match a with
  | ⟨0, _⟩ => show win0_9.index t 0 * 1 ≤ (i 0).val ∧ (i 0).val < win0_9.index t 0 * 1 + 1; rw [i0]; omega
  | ⟨1, _⟩ => show win0_9.index t 1 * 1 ≤ (i 1).val ∧ (i 1).val < win0_9.index t 1 * 1 + 1; rw [i1]; omega
  | ⟨2, _⟩ => show win0_9.index t 2 * 64 ≤ (i 2).val ∧ (i 2).val < win0_9.index t 2 * 64 + 64; rw [i2]; omega

/-- So the array ends holding the stacked rows. -/
theorem final (c : Dev nD) : (dats m 0 c).arrAt 9 cfg0.N = stacked m c :=
  (dats m 0 c).arrAt_eq_of_cover 9 (stacked m c) (flushed_eq m c) (covered c)

end Cert.KernelIdeal.OutputArray

end
-- ==== Proof.Result.lean ====
/-
  The kernel program's result.

  After the region the program takes rows 0 and 1 of the `[2, 1, 64]` array (a slice and a reshape each) and chooses between
  them entry by entry. The rows are the two perceptrons' output rows, so the result is their entrywise choice, and the nine
  argument arrays end as they were launched.
-/
import proofs.«103249_j46866683134472_2_alg».proof.Proof.Gen.KernelIdeal.Frame
import proofs.«103249_j46866683134472_2_alg».proof.Proof.OutputArray
import Idealize.ShloMosaic.Lib.Pipeline.Value
import Idealize.ShloMosaic.Lib.StableHlo.Run
import Idealize.ShloMosaic.Lib.ValueLayout

set_option maxRecDepth 16384

noncomputable section

namespace Cert.KernelIdeal.Result

open Cert.KernelIdeal Cert.KernelIdeal.Gen Idealize.ShloMosaic Idealize.ShloMosaic.TcCoe Idealize.SL.Sem
open Idealize.ShloMosaic.ValueIdx Cert.ChunkedLayer Cert.KernelIdeal.Accumulated Cert.KernelIdeal.OutputArray
open Idealize.ShloMosaic.Pipeline (Dat)

/-- The zero row the tail compares with and falls back to, and its row of halves. -/
abbrev zeros : FVec Ideal S1x64 .f32 := broadcastInDim S1x64 ![] bcast_S_S1x64 (constant S_ .f32 0x00000000#32)
abbrev halves : FVec Ideal S1x64 .f32 := broadcastInDim S1x64 ![] bcast_S_S1x64 (constant S_ .f32 0x3F000000#32)

/-- Row `p` of a `[2, 1, 64]` array as the tail takes it: the slice at `p`, reshaped to `[1, 64]`. -/
abbrev row0 (A : S2x1x64.Idx → EReal) : FVec Ideal S1x64 .f32 :=
  shapeCast S1x64 (extractStridedSlice S1x1x64 ![0, 0, 0] A slices_S2x1x64_S1x1x64_0_0_0) shapeCasts_S1x1x64_S1x64
abbrev row1 (A : S2x1x64.Idx → EReal) : FVec Ideal S1x64 .f32 :=
  shapeCast S1x64 (extractStridedSlice S1x1x64 ![1, 0, 0] A slices_S2x1x64_S1x1x64_1_0_0) shapeCasts_S1x1x64_S1x64

set_option maxHeartbeats 2000000 in
/-- The operations after the region, from any contents: the result buffer ends at the entrywise choice between rows 0
    and 1 of the region's array. -/
theorem tail_after (W : Valuation τ sig (Elt Ideal)) :
    (StableHlo.after (List.flatten [hostOps1, hostOps1_1, hostOps1_2, hostOps1_3]) W (Proc.devRef .tc main_v25) : S1x64.Idx → EReal)
      = combine zeros halves zeros (row0 (W (Proc.devRef .tc main_v4))) (row1 (W (Proc.devRef .tc main_v4))) := by
  simp only [hostOps1, hostOps1_1, hostOps1_2, hostOps1_3, List.flatten_cons, List.flatten_nil, List.append_nil, List.cons_append,
    List.nil_append]
  after_results_simp
  rfl

variable (m : (ℓ : Loc nD τ sig) → Buf (Elt Ideal) ℓ) (ρ : Dev nD → PrngReg)

/-- Row 0 of the stacked rows is the first perceptron's output row. -/
theorem row0_stacked (c : Dev nD) :
    row0 (stacked m c) = outputRow (a0 m c) (a1 m c) (a2 m c) (a3 m c) (a4 m c) := by
  funext y
  obtain ⟨u, j, rfl⟩ : ∃ (u : Fin 1) (j : Fin 64), y = ix2 u j := ⟨y 0, y 1, eq_ix2 y⟩
  refine (shapeCast_1ab_ab_apply _ shapeCasts_S1x1x64_S1x64 u j).trans ?_
  refine (extractStridedSlice_apply ![0, 0, 0] (stacked m c) slices_S2x1x64_S1x1x64_0_0_0 (ix3 (0 : Fin 1) u j) (ix3 (0 : Fin 2) u j)
    (fun a => by
      match a with
      | ⟨0, _⟩ => rfl
      | ⟨1, _⟩ => exact (Nat.zero_add _).symm
      | ⟨2, _⟩ => exact (Nat.zero_add _).symm)).trans ?_
  exact if_pos rfl

/-- Row 1 of the stacked rows is the second perceptron's output row. -/
theorem row1_stacked (c : Dev nD) :
    row1 (stacked m c) = outputRow (a0 m c) (a5 m c) (a6 m c) (a7 m c) (a8 m c) := by
  funext y
  obtain ⟨u, j, rfl⟩ : ∃ (u : Fin 1) (j : Fin 64), y = ix2 u j := ⟨y 0, y 1, eq_ix2 y⟩
  refine (shapeCast_1ab_ab_apply _ shapeCasts_S1x1x64_S1x64 u j).trans ?_
  refine (extractStridedSlice_apply ![1, 0, 0] (stacked m c) slices_S2x1x64_S1x1x64_1_0_0 (ix3 (0 : Fin 1) u j) (ix3 (1 : Fin 2) u j)
    (fun a => by
      match a with
      | ⟨0, _⟩ => rfl
      | ⟨1, _⟩ => exact (Nat.zero_add _).symm
      | ⟨2, _⟩ => exact (Nat.zero_add _).symm)).trans ?_
  exact if_neg (by show ¬((1 : Fin 2).val = 0); decide)

/-- The program's result: the entrywise choice between the two perceptrons' output rows. -/
def value (c : Dev nD) : FVec Ideal S1x64 .f32 :=
  combine zeros halves zeros (outputRow (a0 m c) (a1 m c) (a2 m c) (a3 m c) (a4 m c))
    (outputRow (a0 m c) (a5 m c) (a6 m c) (a7 m c) (a8 m c))

/-- What the result buffer holds after the operations that follow the region. -/
theorem tail_eq (c : Dev nD) :
    (Pipeline.afterTail₀ cfgs (dats m) 0 (V0 m) [hostOps1, hostOps1_1, hostOps1_2, hostOps1_3] c main_v25 : S1x64.Idx → EReal)
      = value m c := by
  unfold Pipeline.afterTail₀
  refine (tail_after _).trans ?_
  have e := (Pipeline.withArrays_arr spec0 launch0.win.arr_inj c (V0 m c) (fun w => (dats m 0 c).arrAt w cfg0.N) 9).trans (final m c)
  exact congrArg₂ (combine zeros halves zeros) ((congrArg row0 e).trans (row0_stacked m c)) ((congrArg row1 e).trans (row1_stacked m c))

/-- THE RUN, read: every execution of the program ends with its result at `value` and its arguments unchanged. -/
theorem run : θ_run defs (onTc (τ := τ) (main (F := Ideal))) ⟨m, fun _ => 0, ρ⟩ fun r => ∀ c : Dev nD,
      r.2.mem ((c.tc : Thread nD τ).loc main_v25) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨((h c).2 main_v25 (Pipeline.mem_restRefs_of main_v25 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c)),
      ((h c).1 7).trans (((dats m 0 c).arrAt_in 7 rfl _).trans ((A_eq m c 7).trans (V_main_arg7 m c))),
      (((h c).2 main_arg8 (Pipeline.mem_restRefs_of main_arg8 (by decide) (by decide))).trans (W_main_arg8 m (dats m) c))⟩)
    (run_main m ρ)

end Cert.KernelIdeal.Result

end
-- ==== Proof.lean ====
/-
  Two rectified two-layer perceptrons on one input row, and the entrywise choice between their outputs.

  The kernel streams the hidden axis of each perceptron (8192 units) in sixteen chunks of 512. At grid point `16 p + k` it
  adds chunk `k`'s contribution to the output of perceptron `p`, `∑ r < 512, max (∑ i, x i · A i (512 k + r) + b (512 k + r)) 0
  · C (512 k + r) j`, to a running row that the first chunk starts from zero; after the last chunk it adds the output bias,
  rectifies, and writes the row into row `p` of a `[2, 1, 64]` array. The reference computes each perceptron with two whole
  matrix products. On the extended reals a matrix product is the plain sum over the contracted axis, whichever unit computes
  it and in whatever order, and a sum over 8192 units is the sum of its sixteen blocks of 512: regrouping a finite sum uses
  only that addition is associative and commutative, so no finiteness of the inputs is needed and the precondition is never
  opened. Both programs then make the same entrywise choice between the two output rows (their mean where both are positive,
  the positive one where the other is zero, zero elsewhere), a function of the two rows alone.

  The frames of the two kernel programs are the generated frame runs; the reference's frame is its generated run with the
  result dropped. The idealization rewrote nothing, so there is nothing to preserve.
-/
import proofs.«103249_j46866683134472_2_alg».proof.Defs
import proofs.«103249_j46866683134472_2_alg».proof.Proof.Gen.Kernel
import proofs.«103249_j46866683134472_2_alg».proof.Proof.Gen.Kernel.Skeleton
import proofs.«103249_j46866683134472_2_alg».proof.Proof.Gen.Kernel.Launch
import proofs.«103249_j46866683134472_2_alg».proof.Proof.Gen.Kernel.Points
import proofs.«103249_j46866683134472_2_alg».proof.Proof.Gen.Kernel.Frame
import proofs.«103249_j46866683134472_2_alg».proof.Proof.Gen.KernelIdeal
import proofs.«103249_j46866683134472_2_alg».proof.Proof.Gen.KernelIdeal.Skeleton
import proofs.«103249_j46866683134472_2_alg».proof.Proof.Gen.KernelIdeal.Launch
import proofs.«103249_j46866683134472_2_alg».proof.Proof.Gen.KernelIdeal.Points
import proofs.«103249_j46866683134472_2_alg».proof.Proof.Gen.KernelIdeal.Frame
import proofs.«103249_j46866683134472_2_alg».proof.Proof.Gen.ReferenceIdeal
import proofs.«103249_j46866683134472_2_alg».proof.Proof.Gen.ReferenceIdeal.Run
import proofs.«103249_j46866683134472_2_alg».proof.Proof.Gen.ReferenceIdeal.Read
import proofs.«103249_j46866683134472_2_alg».proof.Proof.Gen.Pre_finite_inputs
import proofs.«103249_j46866683134472_2_alg».proof.Proof.RefLayer
import proofs.«103249_j46866683134472_2_alg».proof.Proof.Result
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals both programs end at the entrywise choice between the two perceptrons' output rows of the same
    argument arrays: the kernel's chunked accumulation is the reference's whole products, regrouped. -/
theorem algebraic : Cert.algebraic_KernelIdeal_ReferenceIdeal := by
  intro m ρ m' ρ' _ hagree
  refine ⟨fun c => Cert.KernelIdeal.Result.value m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Read.val_main_v32_eq, Cert.ReferenceIdeal.RefValue.result_eq, e0, e1, e2, e3, e4, e5, e6, e7, e8]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
